-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16x16 : Shape := ⟨2, ![16, 16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16x16 : S_.BroadcastsInDim S16x16 (![] : Fin 0 → Fin S16x16.rank)
  reducesTo_S16x16_S_d0_1 : S16x16.ReducesTo [0, 1] S_

variable [Facts]

def fn {F : FTy → Type} [FloatOps F] (main_arg0 : FVec F S100000x512 .f32) (main_arg1 : IVec S2x3200000 32) (main_arg2 : FVec F S512x16 .f32) (main_arg3 : FVec F S16x16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16x16 .f32 := Host.absf main_arg3
  let main_cst_2 : FVec F S_ .f32 := constant S_ .f32 0x7F800000#32
  let main_v10 : FVec F S16x16 .f32 := broadcastInDim S16x16 ![] bcast_S_S16x16 main_cst_2
  let main_v11 : IVec S16x16 1 := cmpf .olt main_v9 main_v10
  let main_c_3 : IVec S_ 1 := constantI S_ 1 1#1
  let main_v12 : IVec S_ 1 := (fun x v => Host.reduce IntOp.andi x v reducesTo_S16x16_S_d0_1 h_S_) main_v11 main_c_3
  let main_v13 : IVec S_ 1 := andi main_v8 main_v12
  main_v13
-- ==== Kernel.lean ====
abbrev S100000x512 : Shape := ⟨2, ![100000, 512]⟩
abbrev S2x3200000 : Shape := ⟨2, ![2, 3200000]⟩
abbrev S512x16 : Shape := ⟨2, ![512, 16]⟩
abbrev S16x16 : Shape := ⟨2, ![16, 16]⟩
abbrev S1x3200000 : Shape := ⟨2, ![1, 3200000]⟩
abbrev S3200000 : Shape := ⟨1, ![3200000]⟩
abbrev S100000x16 : Shape := ⟨2, ![100000, 16]⟩
abbrev S2000x512 : Shape := ⟨2, ![2000, 512]⟩
abbrev S2000x16 : Shape := ⟨2, ![2000, 16]⟩
abbrev S_ : Shape := ⟨0, ![]⟩
abbrev S100000 : Shape := ⟨1, ![100000]⟩
abbrev S3200000x1 : Shape := ⟨2, ![3200000, 1]⟩
abbrev S3200000x16 : Shape := ⟨2, ![3200000, 16]⟩
abbrev S8000x16 : Shape := ⟨2, ![8000, 16]⟩
abbrev S8000x1 : Shape := ⟨2, ![8000, 1]⟩
abbrev S100000x1 : Shape := ⟨2, ![100000, 1]⟩
abbrev S10000x16 : Shape := ⟨2, ![10000, 16]⟩

abbrev nBuf : Space → Nat
  | .hbm => 86
  | .vmem => 22
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16x16, .f32⟩
  | .hbm, ⟨4, _⟩ => ⟨S1x3200000, .i32⟩
  | .hbm, ⟨5, _⟩ => ⟨S3200000, .i32⟩
  | .hbm, ⟨6, _⟩ => ⟨S1x3200000, .i32⟩
  | .hbm, ⟨7, _⟩ => ⟨S3200000, .i32⟩
  | .hbm, ⟨8, _⟩ => ⟨S100000x16, .f32⟩
  | .hbm, ⟨9, _⟩ => ⟨S_, .f32⟩
  | .hbm, ⟨10, _⟩ => ⟨S3200000, .f32⟩
  | .hbm, ⟨11, _⟩ => ⟨S_, .f32⟩
  | .hbm, ⟨12, _⟩ => ⟨S100000, .f32⟩
  | .hbm, ⟨13, _⟩ => ⟨S3200000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S3200000, .f32⟩
  | .hbm, ⟨44, _⟩ => ⟨S3200000, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S3200000x16, .f32⟩
  | .hbm, ⟨54, _⟩ => ⟨S3200000x1, .f32⟩
  | .hbm, ⟨55, _⟩ => ⟨S3200000x16, .f32⟩
  | .hbm, ⟨56, _⟩ => ⟨S_, .f32⟩
  | .hbm, ⟨57, _⟩ => ⟨S100000x16, .f32⟩
  | .hbm, ⟨58, _⟩ => ⟨S3200000x1, .i32⟩
  | .hbm, ⟨59, _⟩ => ⟨S100000x16, .f32⟩
  | .hbm, ⟨60, _⟩ => ⟨S100000, .f32⟩
  | .hbm, ⟨61, _⟩ => ⟨S100000x1, .f32⟩
  | .hbm, ⟨62, _⟩ => ⟨S100000x16, .f32⟩
  | .hbm, ⟨63, _⟩ => ⟨S100000x16, .f32⟩
  | .hbm, ⟨64, _⟩ => ⟨S100000x16, .f32⟩
  | .hbm, ⟨65, _⟩ => ⟨S100000x16, .f32⟩
  | .hbm, ⟨66, _⟩ => ⟨S_, .i32⟩
  | .hbm, ⟨67, _⟩ => ⟨S3200000, .i32⟩
  | .hbm, ⟨68, _⟩ => ⟨S3200000, .i1⟩
  | .hbm, ⟨69, _⟩ => ⟨S_, .i32⟩
  | .hbm, ⟨70, _⟩ => ⟨S3200000, .i32⟩
  | .hbm, ⟨71, _⟩ => ⟨S3200000, .i32⟩
  | .hbm, ⟨72, _⟩ => ⟨S3200000, .i32⟩
  | .hbm, ⟨73, _⟩ => ⟨S3200000x1, .i32⟩
  | .hbm, ⟨74, _⟩ => ⟨S3200000x16, .f32⟩
  | .hbm, ⟨75, _⟩ => ⟨S3200000x1, .f32⟩
  | .hbm, ⟨76, _⟩ => ⟨S3200000x16, .f32⟩
  | .hbm, ⟨77, _⟩ => ⟨S_, .f32⟩
  | .hbm, ⟨78, _⟩ => ⟨S100000x16, .f32⟩
  | .hbm, ⟨79, _⟩ => ⟨S3200000x1, .i32⟩
  | .hbm, ⟨80, _⟩ => ⟨S100000x16, .f32⟩
  | .hbm, ⟨81, _⟩ => ⟨S100000, .f32⟩
  | .hbm, ⟨82, _⟩ => ⟨S100000x1, .f32⟩
  | .hbm, ⟨83, _⟩ => ⟨S100000x16, .f32⟩
  | .hbm, ⟨84, _⟩ => ⟨S100000x16, .f32⟩
  | .hbm, ⟨85, _⟩ => ⟨S100000x16, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S8000x16, .f32⟩
  | .local _ .vmem, ⟨6, _⟩ => ⟨S8000x16, .f32⟩
  | .local _ .vmem, ⟨7, _⟩ => ⟨S8000x1, .f32⟩
  | .local _ .vmem, ⟨8, _⟩ => ⟨S8000x1, .f32⟩
  | .local _ .vmem, ⟨9, _⟩ => ⟨S8000x16, .f32⟩
  | .local _ .vmem, ⟨10, _⟩ => ⟨S8000x16, .f32⟩
  | .local _ .vmem, ⟨11, _⟩ => ⟨S10000x16, .f32⟩
  | .local _ .vmem, ⟨12, _⟩ => ⟨S10000x16, .f32⟩
  | .local _ .vmem, ⟨13, _⟩ => ⟨S16x16, .f32⟩
  | .local _ .vmem, ⟨14, _⟩ => ⟨S10000x16, .f32⟩
  | .local _ .vmem, ⟨15, _⟩ => ⟨S10000x16, .f32⟩
  | .local _ .vmem, ⟨16, _⟩ => ⟨S8000x16, .f32⟩
  | .local _ .vmem, ⟨17, _⟩ => ⟨S8000x16, .f32⟩
  | .local _ .vmem, ⟨18, _⟩ => ⟨S8000x1, .f32⟩
  | .local _ .vmem, ⟨19, _⟩ => ⟨S8000x1, .f32⟩
  | .local _ .vmem, ⟨20, _⟩ => ⟨S8000x16, .f32⟩
  | .local _ .vmem, ⟨21, _⟩ => ⟨S8000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_c_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_10 : Ref sig .tc := ⟨.hbm, 66, rfl⟩
abbrev main_v48 : Ref sig .tc := ⟨.hbm, 67, rfl⟩
abbrev main_v49 : Ref sig .tc := ⟨.hbm, 68, rfl⟩
abbrev main_c_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![400], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S3200000_S3200000x1 : S3200000.ShapeCasts S3200000x1
  inb_S8000x16_S8000x16_0_0 : ∀ a, (![0, 0] : Fin 2 → Nat) a + S8000x16.size a ≤ S8000x16.size a
  h_S8000x16 : 0 < S8000x16.numel
  shapeCasts_S8000x16_S8000x16 : S8000x16.ShapeCasts S8000x16
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x16 : S8000x1.Broadcasts S8000x16
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x16_S16x16_0_0 : ∀ a, (![0, 0] : Fin 2 → Nat) a + S16x16.size a ≤ S16x16.size a
  h_S16x16 : 0 < S16x16.numel
  dot_S2000x512_S512x16_S2000x16_1_0_0_1_n_n_wf : DotDims.WF S2000x512 S512x16 S2000x16 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S10000x16_S16x16_S10000x16_1_0_0_1_n_n_wf : DotDims.WF S10000x16 S16x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x16.size a ≤ S3200000x16.size a
  hwx1_0 : ∀ i : grid1.Coords, EltTy.bits .f32 = 32 ∨ (Rect.block (s := S3200000x16) S8000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S3200000x1.size a
  hwx1_1 : ∀ i : grid1.Coords, EltTy.bits .f32 = 32 ∨ (Rect.block (s := S3200000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x16.size a ≤ S3200000x16.size a
  hwx1_2 : ∀ i : grid1.Coords, EltTy.bits .f32 = 32 ∨ (Rect.block (s := S3200000x16) S8000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x16.size a ≤ S3200000x16.size a
  hwx3_0 : ∀ i : grid3.Coords, EltTy.bits .f32 = 32 ∨ (Rect.block (s := S3200000x16) S8000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x1.size a ≤ S3200000x1.size a
  hwx3_1 : ∀ i : grid3.Coords, EltTy.bits .f32 = 32 ∨ (Rect.block (s := S3200000x1) S8000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x16.size a ≤ S3200000x16.size a
  hwx3_2 : ∀ i : grid3.Coords, EltTy.bits .f32 = 32 ∨ (Rect.block (s := S3200000x16) S8000x16.size (cc3_transform_2 i) (hinb3_2 i)).WholeWords (EltTy.packing .f32)

variable [Facts₀]

def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v36) S8000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S8000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v54) S8000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S8000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S8000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16x16 : Shape := ⟨2, ![16, 16]⟩
abbrev S100000x16 : Shape := ⟨2, ![100000, 16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩

abbrev nBuf : Space → Nat
  | .hbm => 118
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16x16, .f32⟩
  | .hbm, ⟨4, _⟩ => ⟨S100000x16, .f32⟩
  | .hbm, ⟨5, _⟩ => ⟨S1x3200000, .i32⟩
  | .hbm, ⟨6, _⟩ => ⟨S3200000, .i32⟩
  | .hbm, ⟨7, _⟩ => ⟨S1x3200000, .i32⟩
  | .hbm, ⟨8, _⟩ => ⟨S3200000, .i32⟩
  | .hbm, ⟨9, _⟩ => ⟨S100000, .i32⟩
  | .hbm, ⟨10, _⟩ => ⟨S3300000, .i32⟩
  | .hbm, ⟨11, _⟩ => ⟨S3300000, .i32⟩
  | .hbm, ⟨12, _⟩ => ⟨S_, .f32⟩
  | .hbm, ⟨13, _⟩ => ⟨S3300000, .f32⟩
  | .hbm, ⟨14, _⟩ => ⟨S_, .f32⟩
  | .hbm, ⟨15, _⟩ => ⟨S100000, .f32⟩
  | .hbm, ⟨16, _⟩ => ⟨S3300000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S3300000x1, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x16, .f32⟩
  | .hbm, ⟨55, _⟩ => ⟨S3300000x16, .f32⟩
  | .hbm, ⟨56, _⟩ => ⟨S3300000x16, .f32⟩
  | .hbm, ⟨57, _⟩ => ⟨S_, .f32⟩
  | .hbm, ⟨58, _⟩ => ⟨S100000x16, .f32⟩
  | .hbm, ⟨59, _⟩ => ⟨S3300000x1, .i32⟩
  | .hbm, ⟨60, _⟩ => ⟨S100000x16, .f32⟩
  | .hbm, ⟨61, _⟩ => ⟨S100000x16, .f32⟩
  | .hbm, ⟨62, _⟩ => ⟨S1x3200000, .i32⟩
  | .hbm, ⟨63, _⟩ => ⟨S3200000, .i32⟩
  | .hbm, ⟨64, _⟩ => ⟨S1x3200000, .i32⟩
  | .hbm, ⟨65, _⟩ => ⟨S3200000, .i32⟩
  | .hbm, ⟨66, _⟩ => ⟨S100000, .i32⟩
  | .hbm, ⟨67, _⟩ => ⟨S3300000, .i32⟩
  | .hbm, ⟨68, _⟩ => ⟨S3300000, .i32⟩
  | .hbm, ⟨69, _⟩ => ⟨S_, .f32⟩
  | .hbm, ⟨70, _⟩ => ⟨S3300000, .f32⟩
  | .hbm, ⟨71, _⟩ => ⟨S_, .f32⟩
  | .hbm, ⟨72, _⟩ => ⟨S100000, .f32⟩
  | .hbm, ⟨73, _⟩ => ⟨S3300000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .i1⟩
  | .hbm, ⟨78, _⟩ => ⟨S100000, .f32⟩
  | .hbm, ⟨79, _⟩ => ⟨S_, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S_, .i32⟩
  | .hbm, ⟨84, _⟩ => ⟨S3300000, .i32⟩
  | .hbm, ⟨85, _⟩ => ⟨S3300000, .i1⟩
  | .hbm, ⟨86, _⟩ => ⟨S_, .i32⟩
  | .hbm, ⟨87, _⟩ => ⟨S3300000, .i32⟩
  | .hbm, ⟨88, _⟩ => ⟨S3300000, .i32⟩
  | .hbm, ⟨89, _⟩ => ⟨S3300000, .i32⟩
  | .hbm, ⟨90, _⟩ => ⟨S3300000x1, .i32⟩
  | .hbm, ⟨91, _⟩ => ⟨S3300000, .f32⟩
  | .hbm, ⟨92, _⟩ => ⟨S_, .i32⟩
  | .hbm, ⟨93, _⟩ => ⟨S3300000, .i32⟩
  | .hbm, ⟨94, _⟩ => ⟨S3300000, .i1⟩
  | .hbm, ⟨95, _⟩ => ⟨S_, .i32⟩
  | .hbm, ⟨96, _⟩ => ⟨S3300000, .i32⟩
  | .hbm, ⟨97, _⟩ => ⟨S3300000, .i32⟩
  | .hbm, ⟨98, _⟩ => ⟨S3300000, .i32⟩
  | .hbm, ⟨99, _⟩ => ⟨S3300000x1, .i32⟩
  | .hbm, ⟨100, _⟩ => ⟨S3300000, .f32⟩
  | .hbm, ⟨101, _⟩ => ⟨S3300000, .f32⟩
  | .hbm, ⟨102, _⟩ => ⟨S3300000x1, .f32⟩
  | .hbm, ⟨103, _⟩ => ⟨S_, .i32⟩
  | .hbm, ⟨104, _⟩ => ⟨S3300000, .i32⟩
  | .hbm, ⟨105, _⟩ => ⟨S3300000, .i1⟩
  | .hbm, ⟨106, _⟩ => ⟨S_, .i32⟩
  | .hbm, ⟨107, _⟩ => ⟨S3300000, .i32⟩
  | .hbm, ⟨108, _⟩ => ⟨S3300000, .i32⟩
  | .hbm, ⟨109, _⟩ => ⟨S3300000, .i32⟩
  | .hbm, ⟨110, _⟩ => ⟨S3300000x1, .i32⟩
  | .hbm, ⟨111, _⟩ => ⟨S3300000x16, .f32⟩
  | .hbm, ⟨112, _⟩ => ⟨S3300000x16, .f32⟩
  | .hbm, ⟨113, _⟩ => ⟨S3300000x16, .f32⟩
  | .hbm, ⟨114, _⟩ => ⟨S_, .f32⟩
  | .hbm, ⟨115, _⟩ => ⟨S100000x16, .f32⟩
  | .hbm, ⟨116, _⟩ => ⟨S3300000x1, .i32⟩
  | .hbm, ⟨117, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_call1_v0 : Ref sig .tc := ⟨.hbm, 80, rfl⟩
abbrev main_call1_v1 : Ref sig .tc := ⟨.hbm, 81, rfl⟩
abbrev main_v59 : Ref sig .tc := ⟨.hbm, 82, rfl⟩
abbrev main_c_13 : Ref sig .tc := ⟨.hbm, 83, rfl⟩
abbrev main_v60 : Ref sig .tc := ⟨.hbm, 84, rfl⟩
abbrev main_v61 : Ref sig .tc := ⟨.hbm, 85, rfl⟩
abbrev main_c_14 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_c_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_17 : Ref sig .tc := ⟨.hbm, 103, rfl⟩
abbrev main_v76 : Ref sig .tc := ⟨.hbm, 104, rfl⟩
abbrev main_v77 : Ref sig .tc := ⟨.hbm, 105, rfl⟩
abbrev main_c_18 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_19 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf

class Facts : Prop extends Facts₀ where

variable [Facts]
-- ==== Proof.LibRowIndex.lean ====
/-
  Rows indexed by data: a scatter-add of rows and a gather of rows, read at an index.

  `x.at[idx].add(upd)` over the rows of an `[R, C]` table (one row index per update row, carried as an `[N, 1]` array of
  words) is, at the ideal values, the table's entry plus the sum of the update rows whose index IS that row: the index
  word is read signed and NOT clamped, so a word outside `[0, R)` names no row and its update is dropped. The same
  for a flat `[R]` table of scalars. `x[idx]` over the rows of an `[R, C]` table reads row `min (toNat idx) (R - 1)`: the
  word read signed and CLAMPED into `[0, R - 1]`. The two meet where it matters: a word that names a row for the
  scatter names the same row for the gather (`clampRow_of_eq`).
-/
import Idealize.ShloMosaic.PureOps.Ideal
import Idealize.ShloMosaic.Lib.ValueIdx

noncomputable section

open scoped BigOperators

namespace Cert.RowIndex

open Idealize.ShloMosaic Idealize.ShloMosaic.ValueIdx

/-! ## The dimension numbers -/

/-- A scatter of `[N, C]` update rows into the rows of an `[R, C]` table, the row named by an `[N, 1]` array of words. -/
abbrev rowScatter (R C N : Nat) (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ where
  updateWindowDims := [1]
  insertedWindowDims := [0]
  scatterDimsToOperandDims := [0]
  indexVectorDim := 1
  wf := wf

variable {R C N w : Nat}

section Scatter
variable (wf : ScatterDims.WF ⟨2, ![R, C]⟩ ⟨2, ![N, 1]⟩ ⟨2, ![N, C]⟩ [1] [0] [0] 1)
  (j : (⟨2, ![N, C]⟩ : Shape).Idx) (idx : IVec ⟨2, ![N, 1]⟩ w)

theorem rowScatter_start0 : (rowScatter R C N wf).start j idx 0 = (idx (ix2 (j 0) (0 : Fin 1))).toInt := by
  unfold ScatterDims.start
  rw [dif_pos (show (0 : Fin 2) ∈ (rowScatter R C N wf).scatterDimsToOperandDims from List.mem_singleton.mpr rfl)]
  have hsi : (rowScatter R C N wf).siIdx j ⟨List.idxOf (0 : Fin 2) (rowScatter R C N wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowScatter_start1 : (rowScatter R C N wf).start j idx 1 = 0 := by
  unfold ScatterDims.start
  rw [dif_neg (show ¬ (1 : Fin 2) ∈ (rowScatter R C N wf).scatterDimsToOperandDims from
    (by decide : ¬ (1 : Fin 2) ∈ ([0] : List (Fin 2))))]

theorem rowScatter_window0 : (rowScatter R C N wf).window j 0 = 0 := by
  unfold ScatterDims.window
  rw [dif_neg (show ¬ (0 : Fin 2) ∈ (rowScatter R C N wf).sKept from
    (by decide : ¬ (0 : Fin 2) ∈ ([1] : List (Fin 2))))]

theorem rowScatter_window1 : (rowScatter R C N wf).window j 1 = (j 1).val := by
  unfold ScatterDims.window
  rw [dif_pos (show (1 : Fin 2) ∈ (rowScatter R C N wf).sKept from
    (by decide : (1 : Fin 2) ∈ ([1] : List (Fin 2))))]
  rfl

/-- An update row lands on the table row its index word names, column for column; a word outside `[0, R)` lands nowhere. -/
theorem rowScatter_resultIdx?_eq_some_iff (i : (⟨2, ![R, C]⟩ : Shape).Idx) :
    (rowScatter R C N wf).resultIdx? j idx = some i
      ↔ (idx (ix2 (j 0) (0 : Fin 1))).toInt = ((i 0).val : ℤ) ∧ (j 1).val = (i 1).val := by
  have hs0 := rowScatter_start0 wf j idx
  have hs1 := rowScatter_start1 wf j idx
  have hw0 := rowScatter_window0 wf j
  have hw1 := rowScatter_window1 wf j
  have hi0 := idx2_lt0 i
  have hi1 := idx2_lt1 i
  have hj1 := idx2_lt1 j
  unfold ScatterDims.resultIdx?
  split
  · rename_i h
    rw [Option.some.injEq]
    constructor
    · intro e
      have e0 : ((rowScatter R C N wf).start j idx 0 + ((rowScatter R C N wf).window j 0 : ℤ)).toNat = (i 0).val :=
        congrArg (fun f : (⟨2, ![R, C]⟩ : Shape).Idx => (f 0).val) e
      have e1 : ((rowScatter R C N wf).start j idx 1 + ((rowScatter R C N wf).window j 1 : ℤ)).toNat = (i 1).val :=
        congrArg (fun f : (⟨2, ![R, C]⟩ : Shape).Idx => (f 1).val) e
      have h0 := (h 0).1
      rw [hs0, hw0] at e0 h0
      rw [hs1, hw1] at e1
      constructor <;> omega
    · rintro ⟨e0, e1⟩
      funext a
      refine Fin.ext ?_
      match a with
      | ⟨0, _⟩ =>
        show ((rowScatter R C N wf).start j idx 0 + ((rowScatter R C N wf).window j 0 : ℤ)).toNat = (i 0).val
        rw [hs0, hw0]; omega
      | ⟨1, _⟩ =>
        show ((rowScatter R C N wf).start j idx 1 + ((rowScatter R C N wf).window j 1 : ℤ)).toNat = (i 1).val
        rw [hs1, hw1]; omega
  · rename_i h
    constructor
    · intro e; cases e
    · rintro ⟨e0, e1⟩
      exfalso; apply h
      intro a
      match a with
      | ⟨0, _⟩ =>
        show 0 ≤ (rowScatter R C N wf).start j idx 0 + ((rowScatter R C N wf).window j 0 : ℤ)
          ∧ (rowScatter R C N wf).start j idx 0 + ((rowScatter R C N wf).window j 0 : ℤ) < (R : ℤ)
        rw [hs0, hw0]; omega
      | ⟨1, _⟩ =>
        show 0 ≤ (rowScatter R C N wf).start j idx 1 + ((rowScatter R C N wf).window j 1 : ℤ)
          ∧ (rowScatter R C N wf).start j idx 1 + ((rowScatter R C N wf).window j 1 : ℤ) < (C : ℤ)
        rw [hs1, hw1]; omega

/-- THE ROW SCATTER-ADD READ AT `(g, c)`, at the ideal values: the table's entry plus the sum, over the update rows whose
    index word is `g`, of their entry in column `c`. -/
theorem rowScatterAdd_apply (x : FVec Ideal ⟨2, ![R, C]⟩ .f32) (upd : FVec Ideal ⟨2, ![N, C]⟩ .f32) (g : Fin R) (c : Fin C) :
    Host.scatterAdd (F := Ideal) (rowScatter R C N wf) x idx upd (ix2 g c)
      = x (ix2 g c) + ∑ n ∈ Finset.univ.filter (fun n : Fin N => (idx (ix2 n (0 : Fin 1))).toInt = (g.val : ℤ)), upd (ix2 n c) := by
  show x (ix2 g c) + ∑ j ∈ Finset.univ.filter (fun j => (rowScatter R C N wf).resultIdx? j idx = some (ix2 g c)), upd j = _
  congr 1
  rw [Finset.sum_filter, sum_idx2, Finset.sum_filter]
  refine Finset.sum_congr rfl fun n _ => ?_
  by_cases hn : (idx (ix2 n (0 : Fin 1))).toInt = (g.val : ℤ)
  · rw [if_pos hn]
    rw [Finset.sum_eq_single c]
    · rw [if_pos ((rowScatter_resultIdx?_eq_some_iff wf (ix2 n c) idx (ix2 g c)).2 ⟨hn, rfl⟩)]
    · intro b _ hb
      rw [if_neg]
      intro h
      exact hb (Fin.ext ((rowScatter_resultIdx?_eq_some_iff wf (ix2 n b) idx (ix2 g c)).1 h).2)
    · intro h; exact absurd (Finset.mem_univ c) h
  · rw [if_neg hn]
    refine Finset.sum_eq_zero fun b _ => ?_
    rw [if_neg]
    intro h
    exact hn ((rowScatter_resultIdx?_eq_some_iff wf (ix2 n b) idx (ix2 g c)).1 h).1

end Scatter

/-! ## The flat table: one scalar per row -/

/-- A scatter of `[N]` scalars into an `[R]` table, the entry named by an `[N, 1]` array of words. -/
abbrev flatScatter (R N : Nat) (wf : ScatterDims.WF ⟨1, ![R]⟩ ⟨2, ![N, 1]⟩ ⟨1, ![N]⟩ [] [0] [0] 1) :
    ScatterDims ⟨1, ![R]⟩ ⟨2, ![N, 1]⟩ ⟨1, ![N]⟩ where
  updateWindowDims := []
  insertedWindowDims := [0]
  scatterDimsToOperandDims := [0]
  indexVectorDim := 1
  wf := wf

section Flat
variable (wf : ScatterDims.WF ⟨1, ![R]⟩ ⟨2, ![N, 1]⟩ ⟨1, ![N]⟩ [] [0] [0] 1)
  (j : (⟨1, ![N]⟩ : Shape).Idx) (idx : IVec ⟨2, ![N, 1]⟩ w)

theorem flatScatter_start0 : (flatScatter R N wf).start j idx 0 = (idx (ix2 (j 0) (0 : Fin 1))).toInt := by
  unfold ScatterDims.start
  rw [dif_pos (show (0 : Fin 1) ∈ (flatScatter R N wf).scatterDimsToOperandDims from List.mem_singleton.mpr rfl)]
  have hsi : (flatScatter R N wf).siIdx j ⟨List.idxOf (0 : Fin 1) (flatScatter R N wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem flatScatter_window0 : (flatScatter R N wf).window j 0 = 0 := by
  unfold ScatterDims.window
  rw [dif_neg (show ¬ (0 : Fin 1) ∈ (flatScatter R N wf).sKept from
    (by decide : ¬ (0 : Fin 1) ∈ ([] : List (Fin 1))))]

/-- A scalar update lands on the entry its index word names; a word outside `[0, R)` lands nowhere. -/
theorem flatScatter_resultIdx?_eq_some_iff (i : (⟨1, ![R]⟩ : Shape).Idx) :
    (flatScatter R N wf).resultIdx? j idx = some i ↔ (idx (ix2 (j 0) (0 : Fin 1))).toInt = ((i 0).val : ℤ) := by
  have hs0 := flatScatter_start0 wf j idx
  have hw0 := flatScatter_window0 wf j
  have hi0 : (i 0).val < R := (i 0).isLt
  unfold ScatterDims.resultIdx?
  split
  · rename_i h
    rw [Option.some.injEq]
    constructor
    · intro e
      have e0 : ((flatScatter R N wf).start j idx 0 + ((flatScatter R N wf).window j 0 : ℤ)).toNat = (i 0).val :=
        congrArg (fun f : (⟨1, ![R]⟩ : Shape).Idx => (f 0).val) e
      have h0 := (h 0).1
      rw [hs0, hw0] at e0 h0
      omega
    · intro e0
      funext a
      refine Fin.ext ?_
      match a with
      | ⟨0, _⟩ =>
        show ((flatScatter R N wf).start j idx 0 + ((flatScatter R N wf).window j 0 : ℤ)).toNat = (i 0).val
        rw [hs0, hw0]; omega
  · rename_i h
    constructor
    · intro e; cases e
    · intro e0
      exfalso; apply h
      intro a
      match a with
      | ⟨0, _⟩ =>
        show 0 ≤ (flatScatter R N wf).start j idx 0 + ((flatScatter R N wf).window j 0 : ℤ)
          ∧ (flatScatter R N wf).start j idx 0 + ((flatScatter R N wf).window j 0 : ℤ) < (R : ℤ)
        rw [hs0, hw0]; omega

/-- THE FLAT SCATTER-ADD READ AT `g`, at the ideal values: the table's entry plus the sum of the updates whose index word is `g`. -/
theorem flatScatterAdd_apply (x : FVec Ideal ⟨1, ![R]⟩ .f32) (upd : FVec Ideal ⟨1, ![N]⟩ .f32) (g : Fin R) :
    Host.scatterAdd (F := Ideal) (flatScatter R N wf) x idx upd (ix1 g)
      = x (ix1 g) + ∑ n ∈ Finset.univ.filter (fun n : Fin N => (idx (ix2 n (0 : Fin 1))).toInt = (g.val : ℤ)), upd (ix1 n) := by
  show x (ix1 g) + ∑ j ∈ Finset.univ.filter (fun j => (flatScatter R N wf).resultIdx? j idx = some (ix1 g)), upd j = _
  congr 1
  refine Finset.sum_bij (fun (j : (⟨1, ![N]⟩ : Shape).Idx) _ => (j 0 : Fin N)) ?_ ?_ ?_ ?_
  · intro j hj
    exact Finset.mem_filter.2 ⟨Finset.mem_univ _,
      (flatScatter_resultIdx?_eq_some_iff wf j idx (ix1 g)).1 (Finset.mem_filter.1 hj).2⟩
  · intro a _ b _ hab
    rw [eq_ix1 a, eq_ix1 b]
    exact congrArg ix1 hab
  · intro n hn
    exact ⟨ix1 n, Finset.mem_filter.2 ⟨Finset.mem_univ _,
      (flatScatter_resultIdx?_eq_some_iff wf (ix1 n) idx (ix1 g)).2 (Finset.mem_filter.1 hn).2⟩, rfl⟩
  · intro j _
    exact congrArg upd (eq_ix1 j)

end Flat

/-! ## The row gather -/

/-- A gather of whole rows of an `[R, C]` table, the row named by an `[N, 1]` array of words. -/
abbrev rowGather (R C N : Nat) (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- The row a word names for a gather from `R` rows: read signed, clamped into `[0, R - 1]`. -/
def clampRow (R : Nat) (hR : 0 < R) {w : Nat} (b : BitVec w) : Fin R := ⟨min b.toInt.toNat (R - 1), by omega⟩

/-- A word that names a row for the scatter (its signed value IS the row) names the same row for the gather. -/
theorem clampRow_of_eq (hR : 0 < R) (b : BitVec w) (g : Fin R) (h : b.toInt = (g.val : ℤ)) : clampRow R hR b = g := by
  refine Fin.ext ?_
  show min b.toInt.toNat (R - 1) = g.val
  have := g.isLt
  omega

/-- THE ROW GATHER READ AT `(n, c)`: the table at row `clampRow` of the `n`-th index word, column `c`. -/
theorem rowGather_apply {α : Type} (hR : 0 < R)
    (wf : GatherDims.WF ⟨2, ![R, C]⟩ ⟨2, ![N, 1]⟩ ⟨2, ![N, C]⟩ [1] [0] [] [0] [] 1 ![1, C])
    (x : (⟨2, ![R, C]⟩ : Shape).Idx → α) (idx : IVec ⟨2, ![N, 1]⟩ w) (n : Fin N) (c : Fin C) :
    Host.gather (rowGather R C N wf) x idx (ix2 n c) = x (ix2 (clampRow R hR (idx (ix2 n (0 : Fin 1)))) c) := by
  unfold Host.gather
  congr 1
  funext a
  refine Fin.ext ?_
  match a with
  | ⟨0, _⟩ =>
    show (rowGather R C N wf).start (ix2 n c) idx 0 + (rowGather R C N wf).batchCoord (ix2 n c) 0
      + (rowGather R C N wf).offCoord (ix2 n c) 0 = min (idx (ix2 n (0 : Fin 1))).toInt.toNat (R - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather R C N wf).startIndexMap from List.mem_singleton.mpr rfl)]
    have hsi : (rowGather R C N wf).siIdx (ix2 n c) ⟨List.idxOf (0 : Fin 2) (rowGather R C N wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show (rowGather R C N wf).start (ix2 n c) idx 1 + (rowGather R C N wf).batchCoord (ix2 n c) 1
      + (rowGather R C N wf).offCoord (ix2 n c) 1 = c.val
    rw [GatherDims.batchCoord_eq_zero _ _ _ List.not_mem_nil]
    unfold GatherDims.start
    rw [dif_neg (show ¬ (1 : Fin 2) ∈ (rowGather R C N wf).startIndexMap from
      (by decide : ¬ (1 : Fin 2) ∈ ([0] : List (Fin 2))))]
    unfold GatherDims.offCoord
    rw [dif_pos (show (1 : Fin 2) ∈ (rowGather R C N wf).sKept from
      (by decide : (1 : Fin 2) ∈ ([1] : List (Fin 2))))]
    simp only [Nat.zero_add, Nat.add_zero]
    rfl

/-! ## Counting on the extended reals -/

/-- A sum of copies of one extended real is the count times it — at the infinities too, and for the empty sum (`0 · v = 0`):
    a product by a nonnegative factor distributes over a sum of nonnegative terms, which is all the induction needs. -/
theorem sum_const_eq_card_mul {ι : Type} [DecidableEq ι] (s : Finset ι) (v : EReal) :
    ∑ _n ∈ s, v = (∑ _n ∈ s, (1 : EReal)) * v := by
  induction s using Finset.induction_on with
  | empty => simp
  | insert a s ha ih =>
    rw [Finset.sum_insert ha, Finset.sum_insert ha, ih,
      EReal.right_distrib_of_nonneg zero_le_one (Finset.sum_nonneg fun _ _ => zero_le_one), one_mul]

end Cert.RowIndex

end
-- ==== Proof.GcnSpec.lean ====
/-
  Two rounds of normalised neighbourhood averaging on a graph, as ONE function of the argument arrays, entry by entry.

  The graph has 100000 nodes and 3200000 directed edges, edge `e` running from the node named by the word `srcW e` to the
  node named by the word `dstW e` (rows 0 and 1 of the edge array). A word names a row in two ways. For an ACCUMULATION it
  names the row its signed value is, and names no row at all when that value is outside `[0, 100000)`. For a LOOK-UP a
  negative word is first moved up by 100000 (`wrapW`) and the result clamped into `[0, 99999]` (`rowOf`).

  `degree k` is one more than the number of edges accumulated at `k`; `dis k` its inverse square root (zero where the degree
  is not positive); the coefficient of edge `e` is `dis (source row) · dis (target row)`. One round (`conv`) sends a table
  `h` of 16-wide rows to the table whose row `k` is the sum, over the edges accumulated at `k`, of the source's row times the
  edge's coefficient, plus `dis k · dis k` times row `k` itself (the node's own loop). The whole function is a round applied to
  `x · w1`, a product with `w2`, and a second round.

  Every sum is a sum in the extended reals, where addition and multiplication are commutative and associative at the
  infinities too; nothing here distributes a product over a sum.
-/
import Idealize.ShloMosaic.PureOps.Ideal
import Idealize.ShloMosaic.Lib.ValueIdx
import proofs.«108763_j6004364280103_2_alg».proof.Proof.LibRowIndex

noncomputable section

open scoped BigOperators

namespace Cert.Gcn

open Idealize.ShloMosaic Idealize.ShloMosaic.ValueIdx Cert.RowIndex

/-- The float zero and one, as the words both programs write them. -/
abbrev zeroW : EReal := FloatOps.ofBits (F := Ideal) .f32 0x00000000#32
abbrev oneW : EReal := FloatOps.ofBits (F := Ideal) .f32 0x3F800000#32

/-- The edge array: row 0 the source words, row 1 the target words. -/
abbrev Edges : Type := IVec (⟨2, ![2, 3200000]⟩ : Shape) 32

/-- Edge `e`'s source word. -/
def srcW (ei : Edges) (e : Fin 3200000) : BitVec 32 := ei (ix2 (0 : Fin 2) e)
/-- Edge `e`'s target word. -/
def dstW (ei : Edges) (e : Fin 3200000) : BitVec 32 := ei (ix2 (1 : Fin 2) e)

/-- A look-up moves a negative word up by the number of rows. -/
def wrapW (b : BitVec 32) : BitVec 32 := Scalar.select (IntOp.cmpi .slt b 0#32) (IntOp.addi b 100000#32) b

/-- The row a word names for a look-up: moved up if negative, then clamped into the table. -/
def rowOf (b : BitVec 32) : Fin 100000 := clampRow 100000 (by norm_num) (wrapW b)

/-- The edges accumulated at node `k`: those whose target word, read signed, IS `k`. -/
def hits (ei : Edges) (k : Fin 100000) : Finset (Fin 3200000) :=
  Finset.univ.filter fun e => (dstW ei e).toInt = (k.val : ℤ)

/-- One more than the number of edges accumulated at `k`. -/
def degree (ei : Edges) (k : Fin 100000) : EReal := (zeroW + ∑ _e ∈ hits ei k, oneW) + oneW

/-- The inverse square root where the argument is positive, zero elsewhere. -/
def disOf (d : EReal) : EReal :=
  Scalar.select (FloatOps.cmpf (F := Ideal) (φ := .f32) .ogt d zeroW) (FloatOps.hostUnary (F := Ideal) (φ := .f32) .rsqrt d) zeroW

/-- Node `k`'s normalising factor. -/
def dis (ei : Edges) (k : Fin 100000) : EReal := disOf (degree ei k)

/-- Edge `e`'s coefficient: the factor of its source row times the factor of its target row (both as looked up). -/
def coef (ei : Edges) (e : Fin 3200000) : EReal := dis ei (rowOf (srcW ei e)) * dis ei (rowOf (dstW ei e))

/-- One round: row `k` is the edges' contributions accumulated at `k` plus the node's own loop. -/
def conv (ei : Edges) (h : Fin 100000 → Fin 16 → EReal) (k : Fin 100000) (f : Fin 16) : EReal :=
  (zeroW + ∑ e ∈ hits ei k, h (rowOf (srcW ei e)) f * coef ei e) + (dis ei k * dis ei k) * h k f

/-- The first product: a row of `x` against a column of `w1`. -/
def lin1 (x : FVec Ideal (⟨2, ![100000, 512]⟩ : Shape) .f32) (w1 : FVec Ideal (⟨2, ![512, 16]⟩ : Shape) .f32)
    (r : Fin 100000) (f : Fin 16) : EReal := ∑ k : Fin 512, x (ix2 r k) * w1 (ix2 k f)

/-- The second product: a row of the table against a column of `w2`. -/
def lin2 (h : Fin 100000 → Fin 16 → EReal) (w2 : FVec Ideal (⟨2, ![16, 16]⟩ : Shape) .f32)
    (r : Fin 100000) (f : Fin 16) : EReal := ∑ k : Fin 16, h r k * w2 (ix2 k f)

/-- The table after the first round. -/
def layer1 (x : FVec Ideal (⟨2, ![100000, 512]⟩ : Shape) .f32) (ei : Edges)
    (w1 : FVec Ideal (⟨2, ![512, 16]⟩ : Shape) .f32) : Fin 100000 → Fin 16 → EReal := conv ei (lin1 x w1)

/-- THE RESULT: a round on `x · w1`, the product with `w2`, a second round. -/
def out (x : FVec Ideal (⟨2, ![100000, 512]⟩ : Shape) .f32) (ei : Edges)
    (w1 : FVec Ideal (⟨2, ![512, 16]⟩ : Shape) .f32) (w2 : FVec Ideal (⟨2, ![16, 16]⟩ : Shape) .f32) :
    FVec Ideal (⟨2, ![100000, 16]⟩ : Shape) .f32 :=
  fun i => conv ei (lin2 (layer1 x ei w1) w2) (i 0) (i 1)

theorem out_apply (x : FVec Ideal (⟨2, ![100000, 512]⟩ : Shape) .f32) (ei : Edges)
    (w1 : FVec Ideal (⟨2, ![512, 16]⟩ : Shape) .f32) (w2 : FVec Ideal (⟨2, ![16, 16]⟩ : Shape) .f32)
    (k : Fin 100000) (f : Fin 16) : out x ei w1 w2 (ix2 k f) = conv ei (lin2 (layer1 x ei w1) w2) k f := rfl

end Cert.Gcn

end
-- ==== Proof.KernelRun.lean ====
/-
  The kernel program's run, at any float arithmetic, with its RESULT named.

  @main is eleven segments: seven stretches of host operations and four pipelined regions between them. The buffer contents
  at each boundary are a fold from the launch memory — a stretch applies its operations, a region replaces its output
  array by what its write-backs leave and keeps everything else — and the last boundary's contents (`W11`) are what every
  weakly fair execution ends with in every unscoped buffer. The frame claim reads only the four argument buffers off
  that last state; here the result buffer is read off it as well: it ends at `W11` of the result's reference.
-/
import proofs.«108763_j6004364280103_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the four argument buffers as launched. -/
theorem run_out : θ_run defs (onTc (τ := τ) (main (F := F))) ⟨m, fun _ => 0, ρ⟩ (fun r => ∀ c : Dev nD,
      r.2.mem ((c.tc : Thread nD τ).loc main_v64) = W11 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v64 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c)⟩)

end Cert.KernelIdeal.KRun

end
-- ==== Proof.KTerm.lean ====
/-
  The kernel program's result, at exact arithmetic, as a term of its argument arrays, in named stages.

  The program keeps the 3200000 edges and the 100000 loops apart. A node's degree is the number of edges accumulated at
  it, plus one (`kDeg`); its factor the inverse square root of the degree where positive (`kDis`); an edge's coefficient the
  product of the factors looked up at its two ends (`kCoef`). One round (`kAgg`) looks a table's rows up at the edges'
  sources (`kPre`), scales row `e` by edge `e`'s coefficient (`kMsg`: the scaling region, the coefficients as a column
  `kCol`), accumulates the scaled rows at the edges' targets, and adds the loop term `dis k · dis k · h k`. The two matrix
  products (`kMul1`, `kMul2`: the matmul regions) are plain sums of products. The result is a round on `x0 · x2`, the
  product with `x3`, and a second round.
-/
import proofs.«108763_j6004364280103_2_alg».proof.Proof.Gen.KernelIdeal
import Idealize.ShloMosaic.PureOps.Ideal
import Idealize.ShloMosaic.Lib.ValueIdx

noncomputable section

open scoped BigOperators

namespace Cert.KernelIdeal.KTerm

open Cert.KernelIdeal Cert.KernelIdeal.Gen Idealize.ShloMosaic Idealize.ShloMosaic.TcCoe Idealize.ShloMosaic.ValueIdx

/-- The edges' source words: row 0 of the edge array. -/
def kSrc (x1 : IVec S2x3200000 32) : IVec S3200000 32 :=
  shapeCast _ (extractStridedSlice S1x3200000 ![0, 0] x1 slices_S2x3200000_S1x3200000_0_0) shapeCasts_S1x3200000_S3200000

/-- The edges' target words: row 1 of the edge array. -/
def kDst (x1 : IVec S2x3200000 32) : IVec S3200000 32 :=
  shapeCast _ (extractStridedSlice S1x3200000 ![1, 0] x1 slices_S2x3200000_S1x3200000_1_0) shapeCasts_S1x3200000_S3200000

/-- A node's degree: a one accumulated at every edge's target, from zero, and one more for the node's loop. -/
def kDeg (x1 : IVec S2x3200000 32) : FVec Ideal S100000 .f32 :=
  addf (Host.scatterAdd (F := Ideal) scatter_S100000_S3200000x1_S3200000_n_0_0_1 (broadcastInDim S100000 ![] bcast_S_S100000 (constant (F := Ideal) S_ .f32 0x00000000#32)) (broadcastInDim S3200000x1 ![0] bcast_S3200000_S3200000x1_0 (kDst x1)) (broadcastInDim S3200000 ![] bcast_S_S3200000 (constant (F := Ideal) S_ .f32 0x3F800000#32))) (broadcastInDim S100000 ![] bcast_S_S100000 (constant (F := Ideal) S_ .f32 0x3F800000#32))

/-- A node's factor: the inverse square root of its degree where that is positive, zero elsewhere. -/
def kDis (x1 : IVec S2x3200000 32) : FVec Ideal S100000 .f32 :=
  select (cmpf (F := Ideal) .ogt (kDeg x1) (broadcastInDim S100000 ![] bcast_S_S100000 (constant (F := Ideal) S_ .f32 0x00000000#32))) (Host.rsqrt (F := Ideal) (kDeg x1)) (broadcastInDim S100000 ![] bcast_S_S100000 (id (constant (F := Ideal) S_ .f32 0x00000000#32)))

/-- A look-up moves the negative words up by the number of rows. -/
def kWrap (v : IVec S3200000 32) : IVec S3200000 32 :=
  select (cmpi .slt v (broadcastInDim S3200000 ![] bcast_S_S3200000 (constantI S_ 32 0#32))) (addi v (broadcastInDim S3200000 ![] bcast_S_S3200000 (constantI S_ 32 100000#32))) v

/-- An edge's coefficient: the factor looked up at its source times the factor looked up at its target. -/
def kCoef (x1 : IVec S2x3200000 32) : FVec Ideal S3200000 .f32 :=
  mulf (F := Ideal) (Host.gather gather_S100000_S3200000x1_S3200000_n_0_n_n_0_1_1 (kDis x1) (broadcastInDim S3200000x1 ![0] bcast_S3200000_S3200000x1_0 (kWrap (kSrc x1)))) (Host.gather gather_S100000_S3200000x1_S3200000_n_0_n_n_0_1_1 (kDis x1) (broadcastInDim S3200000x1 ![0] bcast_S3200000_S3200000x1_0 (kWrap (kDst x1))))

/-- The coefficients as a column. -/
def kCol (x1 : IVec S2x3200000 32) : FVec Ideal S3200000x1 .f32 :=
  shapeCast _ (kCoef x1) shapeCasts_S3200000_S3200000x1

/-- The table's rows looked up at the edges' sources. -/
def kPre (x1 : IVec S2x3200000 32) (h : FVec Ideal S100000x16 .f32) : FVec Ideal S3200000x16 .f32 :=
  Host.gather gather_S100000x16_S3200000x1_S3200000x16_1_0_n_n_0_1_116 h (broadcastInDim S3200000x1 ![0] bcast_S3200000_S3200000x1_0 (kWrap (kSrc x1)))

/-- The scaling region: row `e` of the looked-up rows times edge `e`'s coefficient. -/
def kMsg (x1 : IVec S2x3200000 32) (h : FVec Ideal S100000x16 .f32) : FVec Ideal S3200000x16 .f32 :=
  fun i => kPre x1 h i * kCol x1 (ix2 (i 0) (0 : Fin 1))

/-- One round: the scaled rows accumulated at the edges' targets, from zero, plus the loop term. -/
def kAgg (x1 : IVec S2x3200000 32) (h : FVec Ideal S100000x16 .f32) : FVec Ideal S100000x16 .f32 :=
  addf (F := Ideal) (Host.scatterAdd (F := Ideal) scatter_S100000x16_S3200000x1_S3200000x16_1_0_0_1 (broadcastInDim S100000x16 ![] bcast_S_S100000x16 (constant (F := Ideal) S_ .f32 0x00000000#32)) (broadcastInDim S3200000x1 ![0] bcast_S3200000_S3200000x1_0 (kDst x1)) (kMsg x1 h)) (mulf (F := Ideal) (broadcastInDim S100000x16 ![0, 1] bcast_S100000x1_S100000x16_0_1 (broadcastInDim S100000x1 ![0] bcast_S100000_S100000x1_0 (mulf (F := Ideal) (kDis x1) (kDis x1)))) h)

/-- The first matmul region: rows of `x0` against columns of `x2`. -/
def kMul1 (x0 : FVec Ideal S100000x512 .f32) (x2 : FVec Ideal S512x16 .f32) : FVec Ideal S100000x16 .f32 :=
  fun i => ∑ k : Fin 512, x0 (ix2 (i 0) k) * x2 (ix2 k (i 1))

/-- The second matmul region: rows of the table against columns of `x3`. -/
def kMul2 (h : FVec Ideal S100000x16 .f32) (x3 : FVec Ideal S16x16 .f32) : FVec Ideal S100000x16 .f32 :=
  fun i => ∑ k : Fin 16, h (ix2 (i 0) k) * x3 (ix2 k (i 1))

/-- The program's result: a round on `x0 · x2`, the product with `x3`, a second round. -/
def kOut (x0 : FVec Ideal S100000x512 .f32) (x1 : IVec S2x3200000 32) (x2 : FVec Ideal S512x16 .f32) (x3 : FVec Ideal S16x16 .f32) : FVec Ideal S100000x16 .f32 :=
  kAgg x1 (kMul2 (kAgg x1 (kMul1 x0 x2)) x3)

end Cert.KernelIdeal.KTerm

end
-- ==== Proof.KStretch.lean ====
/-
  The kernel program's seven stretches of host operations, each as equations between buffer contents.

  A stretch run from ANY buffer contents `W` leaves in each buffer it writes its operations' term of the buffers it reads,
  and leaves every buffer it does not write as it was. The terms are the named stages with the vectors they depend on left
  free: the degrees of the target words, the coefficients of the factors and the two rows of words, a table's rows looked
  up at the source words, a vector as a column, and a round from the factors, the target words, the scaled rows and the table.
-/
import proofs.«108763_j6004364280103_2_alg».proof.Proof.Gen.KernelIdeal.Launch
import proofs.«108763_j6004364280103_2_alg».proof.Proof.KTerm
import Idealize.ShloMosaic.Lib.StableHlo.Run

set_option maxRecDepth 16384

noncomputable section

namespace Cert.KernelIdeal.KStretch

open Cert.KernelIdeal Cert.KernelIdeal.Gen Cert.KernelIdeal.KTerm
open Idealize.ShloMosaic Idealize.ShloMosaic.TcCoe Idealize.ShloMosaic.ValueIdx
open Idealize.SL Idealize.SL.Sem
open Idealize.ShloMosaic.StableHlo

/-! ## The stage terms over free vectors (the named stages are these at the edge words' rows) -/

/-- The degrees from the target words `d`. -/
def degT (d : IVec S3200000 32) : FVec Ideal S100000 .f32 :=
  addf (Host.scatterAdd (F := Ideal) scatter_S100000_S3200000x1_S3200000_n_0_0_1 (broadcastInDim S100000 ![] bcast_S_S100000 (constant (F := Ideal) S_ .f32 0x00000000#32)) (broadcastInDim S3200000x1 ![0] bcast_S3200000_S3200000x1_0 d) (broadcastInDim S3200000 ![] bcast_S_S3200000 (constant (F := Ideal) S_ .f32 0x3F800000#32))) (broadcastInDim S100000 ![] bcast_S_S100000 (constant (F := Ideal) S_ .f32 0x3F800000#32))

theorem kDeg_eq (x1 : IVec S2x3200000 32) : kDeg x1 = degT (kDst x1) := rfl

/-- The coefficients from the factors `dis` and the two rows of words. -/
def coefT (dis : FVec Ideal S100000 .f32) (s d : IVec S3200000 32) : FVec Ideal S3200000 .f32 :=
  mulf (F := Ideal) (Host.gather gather_S100000_S3200000x1_S3200000_n_0_n_n_0_1_1 dis (broadcastInDim S3200000x1 ![0] bcast_S3200000_S3200000x1_0 (kWrap s))) (Host.gather gather_S100000_S3200000x1_S3200000_n_0_n_n_0_1_1 dis (broadcastInDim S3200000x1 ![0] bcast_S3200000_S3200000x1_0 (kWrap d)))

theorem kCoef_eq (x1 : IVec S2x3200000 32) : kCoef x1 = coefT (kDis x1) (kSrc x1) (kDst x1) := rfl

/-- The table's rows looked up at the words `s`. -/
def preT (s : IVec S3200000 32) (h : FVec Ideal S100000x16 .f32) : FVec Ideal S3200000x16 .f32 :=
  Host.gather gather_S100000x16_S3200000x1_S3200000x16_1_0_n_n_0_1_116 h (broadcastInDim S3200000x1 ![0] bcast_S3200000_S3200000x1_0 (kWrap s))

theorem kPre_eq (x1 : IVec S2x3200000 32) (h : FVec Ideal S100000x16 .f32) : kPre x1 h = preT (kSrc x1) h := rfl

/-- A vector as a column. -/
def colT (v : FVec Ideal S3200000 .f32) : FVec Ideal S3200000x1 .f32 := shapeCast _ v shapeCasts_S3200000_S3200000x1

theorem kCol_eq (x1 : IVec S2x3200000 32) : kCol x1 = colT (kCoef x1) := rfl

/-- One round from the factors, the target words, the scaled rows and the table. -/
def aggT (dis : FVec Ideal S100000 .f32) (d : IVec S3200000 32) (msg : FVec Ideal S3200000x16 .f32) (h : FVec Ideal S100000x16 .f32) : FVec Ideal S100000x16 .f32 :=
  addf (F := Ideal) (Host.scatterAdd (F := Ideal) scatter_S100000x16_S3200000x1_S3200000x16_1_0_0_1 (broadcastInDim S100000x16 ![] bcast_S_S100000x16 (constant (F := Ideal) S_ .f32 0x00000000#32)) (broadcastInDim S3200000x1 ![0] bcast_S3200000_S3200000x1_0 d) msg) (mulf (F := Ideal) (broadcastInDim S100000x16 ![0, 1] bcast_S100000x1_S100000x16_0_1 (broadcastInDim S100000x1 ![0] bcast_S100000_S100000x1_0 (mulf (F := Ideal) dis dis))) h)

theorem kAgg_eq (x1 : IVec S2x3200000 32) (h : FVec Ideal S100000x16 .f32) : kAgg x1 h = aggT (kDis x1) (kDst x1) (kMsg x1 h) h := rfl

/-! ## The first stretch: the two rows of the edge array -/

set_option maxHeartbeats 1000000 in
theorem s0_v1 (W : Valuation τ sig (Elt Ideal)) : StableHlo.after hostOps0 W (Proc.devRef .tc main_v1) = kSrc (W (Proc.devRef .tc main_arg1)) := by
  after_results
  first | done | rfl

set_option maxHeartbeats 1000000 in
theorem s0_v3 (W : Valuation τ sig (Elt Ideal)) : StableHlo.after hostOps0 W (Proc.devRef .tc main_v3) = kDst (W (Proc.devRef .tc main_arg1)) := by
  after_results
  first | done | rfl

theorem s0_arg0 (W : Valuation τ sig (Elt Ideal)) : StableHlo.after hostOps0 W (Proc.devRef .tc main_arg0) = W (Proc.devRef .tc main_arg0) := by
  after_results

theorem s0_arg2 (W : Valuation τ sig (Elt Ideal)) : StableHlo.after hostOps0 W (Proc.devRef .tc main_arg2) = W (Proc.devRef .tc main_arg2) := by
  after_results

theorem s0_arg3 (W : Valuation τ sig (Elt Ideal)) : StableHlo.after hostOps0 W (Proc.devRef .tc main_arg3) = W (Proc.devRef .tc main_arg3) := by
  after_results

/-! ## The three stretches before the first scaling region -/

set_option maxHeartbeats 1000000 in
theorem s1_v10 (W : Valuation τ sig (Elt Ideal)) : StableHlo.after hostOps1 W (Proc.devRef .tc main_v10) = degT (W (Proc.devRef .tc main_v3)) := by
  after_results
  first | done | rfl

set_option maxHeartbeats 1000000 in
theorem s1_v12 (W : Valuation τ sig (Elt Ideal)) : StableHlo.after hostOps1 W (Proc.devRef .tc main_v12) = cmpf (F := Ideal) .ogt (degT (W (Proc.devRef .tc main_v3))) (broadcastInDim S100000 ![] bcast_S_S100000 (constant (F := Ideal) S_ .f32 0x00000000#32)) := by
  after_results
  first | done | rfl

set_option maxHeartbeats 1000000 in
theorem s1_v13 (W : Valuation τ sig (Elt Ideal)) : StableHlo.after hostOps1 W (Proc.devRef .tc main_v13) = Host.rsqrt (F := Ideal) (degT (W (Proc.devRef .tc main_v3))) := by
  after_results
  first | done | rfl

set_option maxHeartbeats 1000000 in
theorem s1_cst_3 (W : Valuation τ sig (Elt Ideal)) : StableHlo.after hostOps1 W (Proc.devRef .tc main_cst_3) = constant (F := Ideal) S_ .f32 0x00000000#32 := by
  after_results
  first | done | rfl

theorem s1_v3 (W : Valuation τ sig (Elt Ideal)) : StableHlo.after hostOps1 W (Proc.devRef .tc main_v3) = W (Proc.devRef .tc main_v3) := by
  after_results

theorem s1_v1 (W : Valuation τ sig (Elt Ideal)) : StableHlo.after hostOps1 W (Proc.devRef .tc main_v1) = W (Proc.devRef .tc main_v1) := by
  after_results

theorem s1_v4 (W : Valuation τ sig (Elt Ideal)) : StableHlo.after hostOps1 W (Proc.devRef .tc main_v4) = W (Proc.devRef .tc main_v4) := by
  after_results

theorem s1_arg3 (W : Valuation τ sig (Elt Ideal)) : StableHlo.after hostOps1 W (Proc.devRef .tc main_arg3) = W (Proc.devRef .tc main_arg3) := by
  after_results

set_option maxHeartbeats 1000000 in
theorem s11_v14 (W : Valuation τ sig (Elt Ideal)) : StableHlo.after hostOps1_1 W (Proc.devRef .tc main_v14) = select (W (Proc.devRef .tc main_v12)) (W (Proc.devRef .tc main_v13)) (broadcastInDim S100000 ![] bcast_S_S100000 (id (W (Proc.devRef .tc main_cst_3)))) := by
  after_results
  first | done | rfl

theorem s11_v3 (W : Valuation τ sig (Elt Ideal)) : StableHlo.after hostOps1_1 W (Proc.devRef .tc main_v3) = W (Proc.devRef .tc main_v3) := by
  after_results

theorem s11_v1 (W : Valuation τ sig (Elt Ideal)) : StableHlo.after hostOps1_1 W (Proc.devRef .tc main_v1) = W (Proc.devRef .tc main_v1) := by
  after_results

theorem s11_v4 (W : Valuation τ sig (Elt Ideal)) : StableHlo.after hostOps1_1 W (Proc.devRef .tc main_v4) = W (Proc.devRef .tc main_v4) := by
  after_results

theorem s11_arg3 (W : Valuation τ sig (Elt Ideal)) : StableHlo.after hostOps1_1 W (Proc.devRef .tc main_arg3) = W (Proc.devRef .tc main_arg3) := by
  after_results

set_option maxHeartbeats 1000000 in
theorem s12_v29 (W : Valuation τ sig (Elt Ideal)) : StableHlo.after hostOps1_2 W (Proc.devRef .tc main_v29) = coefT (W (Proc.devRef .tc main_v14)) (W (Proc.devRef .tc main_v1)) (W (Proc.devRef .tc main_v3)) := by
  after_results
  first | done | rfl

set_option maxHeartbeats 1000000 in
theorem s12_v36 (W : Valuation τ sig (Elt Ideal)) : StableHlo.after hostOps1_2 W (Proc.devRef .tc main_v36) = preT (W (Proc.devRef .tc main_v1)) (W (Proc.devRef .tc main_v4)) := by
  after_results
  first | done | rfl

set_option maxHeartbeats 1000000 in
theorem s12_v37 (W : Valuation τ sig (Elt Ideal)) : StableHlo.after hostOps1_2 W (Proc.devRef .tc main_v37) = colT (coefT (W (Proc.devRef .tc main_v14)) (W (Proc.devRef .tc main_v1)) (W (Proc.devRef .tc main_v3))) := by
  after_results
  first | done | rfl

theorem s12_v14 (W : Valuation τ sig (Elt Ideal)) : StableHlo.after hostOps1_2 W (Proc.devRef .tc main_v14) = W (Proc.devRef .tc main_v14) := by
  after_results

theorem s12_v4 (W : Valuation τ sig (Elt Ideal)) : StableHlo.after hostOps1_2 W (Proc.devRef .tc main_v4) = W (Proc.devRef .tc main_v4) := by
  after_results

theorem s12_v3 (W : Valuation τ sig (Elt Ideal)) : StableHlo.after hostOps1_2 W (Proc.devRef .tc main_v3) = W (Proc.devRef .tc main_v3) := by
  after_results

theorem s12_v1 (W : Valuation τ sig (Elt Ideal)) : StableHlo.after hostOps1_2 W (Proc.devRef .tc main_v1) = W (Proc.devRef .tc main_v1) := by
  after_results

theorem s12_arg3 (W : Valuation τ sig (Elt Ideal)) : StableHlo.after hostOps1_2 W (Proc.devRef .tc main_arg3) = W (Proc.devRef .tc main_arg3) := by
  after_results

/-! ## The stretch before the second matmul region -/

set_option maxHeartbeats 1000000 in
theorem s2_v46 (W : Valuation τ sig (Elt Ideal)) : StableHlo.after hostOps2 W (Proc.devRef .tc main_v46) = aggT (W (Proc.devRef .tc main_v14)) (W (Proc.devRef .tc main_v3)) (W (Proc.devRef .tc main_v38)) (W (Proc.devRef .tc main_v4)) := by
  after_results
  first | done | rfl

theorem s2_arg3 (W : Valuation τ sig (Elt Ideal)) : StableHlo.after hostOps2 W (Proc.devRef .tc main_arg3) = W (Proc.devRef .tc main_arg3) := by
  after_results

theorem s2_v14 (W : Valuation τ sig (Elt Ideal)) : StableHlo.after hostOps2 W (Proc.devRef .tc main_v14) = W (Proc.devRef .tc main_v14) := by
  after_results

theorem s2_v29 (W : Valuation τ sig (Elt Ideal)) : StableHlo.after hostOps2 W (Proc.devRef .tc main_v29) = W (Proc.devRef .tc main_v29) := by
  after_results

theorem s2_v3 (W : Valuation τ sig (Elt Ideal)) : StableHlo.after hostOps2 W (Proc.devRef .tc main_v3) = W (Proc.devRef .tc main_v3) := by
  after_results

theorem s2_v1 (W : Valuation τ sig (Elt Ideal)) : StableHlo.after hostOps2 W (Proc.devRef .tc main_v1) = W (Proc.devRef .tc main_v1) := by
  after_results

/-! ## The stretch before the second scaling region -/

set_option maxHeartbeats 1000000 in
theorem s3_v54 (W : Valuation τ sig (Elt Ideal)) : StableHlo.after hostOps3 W (Proc.devRef .tc main_v54) = preT (W (Proc.devRef .tc main_v1)) (W (Proc.devRef .tc main_v47)) := by
  after_results
  first | done | rfl

set_option maxHeartbeats 1000000 in
theorem s3_v55 (W : Valuation τ sig (Elt Ideal)) : StableHlo.after hostOps3 W (Proc.devRef .tc main_v55) = colT (W (Proc.devRef .tc main_v29)) := by
  after_results
  first | done | rfl

theorem s3_v47 (W : Valuation τ sig (Elt Ideal)) : StableHlo.after hostOps3 W (Proc.devRef .tc main_v47) = W (Proc.devRef .tc main_v47) := by
  after_results

theorem s3_v14 (W : Valuation τ sig (Elt Ideal)) : StableHlo.after hostOps3 W (Proc.devRef .tc main_v14) = W (Proc.devRef .tc main_v14) := by
  after_results

theorem s3_v3 (W : Valuation τ sig (Elt Ideal)) : StableHlo.after hostOps3 W (Proc.devRef .tc main_v3) = W (Proc.devRef .tc main_v3) := by
  after_results

/-! ## The last stretch -/

set_option maxHeartbeats 1000000 in
theorem s4_v64 (W : Valuation τ sig (Elt Ideal)) : StableHlo.after hostOps4 W (Proc.devRef .tc main_v64) = aggT (W (Proc.devRef .tc main_v14)) (W (Proc.devRef .tc main_v3)) (W (Proc.devRef .tc main_v56)) (W (Proc.devRef .tc main_v47)) := by
  after_results
  first | done | rfl

end Cert.KernelIdeal.KStretch

end
-- ==== Proof.KFold.lean ====
/-
  The kernel program's buffers at exact arithmetic, boundary by boundary, as terms of the argument arrays.

  The contents at each segment boundary are a fold from the launch memory. Walking the fold forward, every buffer a later
  segment still reads is, at every boundary, a fixed term of the four argument arrays as launched: a stretch of host
  operations writes its results as its operations of what it reads and leaves the rest; a region replaces its output
  array by its closed form of its input arrays and leaves the rest. At the last boundary the result buffer is the second
  round's term.
-/
import proofs.«108763_j6004364280103_2_alg».proof.Proof.Gen.KernelIdeal.Frame
import proofs.«108763_j6004364280103_2_alg».proof.Proof.KTerm
import proofs.«108763_j6004364280103_2_alg».proof.Proof.KStretch

set_option maxRecDepth 16384

noncomputable section

open scoped BigOperators

namespace Cert.KernelIdeal.KFold

open Cert.KernelIdeal Cert.KernelIdeal.Gen Cert.KernelIdeal.KTerm Cert.KernelIdeal.KStretch
open Idealize.ShloMosaic Idealize.ShloMosaic.TcCoe Idealize.ShloMosaic.Tactic Idealize.ShloMosaic.ValueIdx
open Idealize.SL Idealize.SL.Sem
open Idealize.ShloMosaic.StableHlo
open Idealize.ShloMosaic.Pipeline (Dat Cfg Window BodyObligation cellOf)

variable (m : (ℓ : Loc nD τ sig) → Buf (Elt Ideal) ℓ) (ρ : Dev nD → PrngReg) (c : Dev nD)

/-- Rows scaled by a column: row `e` of the first array times entry `e` of the second. -/
def scaleRows (a0 : FVec Ideal S3200000x16 .f32) (a1 : FVec Ideal S3200000x1 .f32) : FVec Ideal S3200000x16 .f32 :=
  fun i => a0 i * a1 (ix2 (i 0) (0 : Fin 1))

-- What the four regions leave in their output arrays, as whole-array functions of their input arrays as each region
-- finds them: two sums of products and two row scalings.
variable
  (hf0 : ∀ (V : (c : Dev nD) → (b : Ref sig .tc) → Buf (Elt Ideal) ((c : Thread nD τ).loc b)) (c : Dev nD), (dat0 (F := Ideal) V c).arrAt 2 cfg0.N = kMul1 (V c main_arg0) (V c main_arg2))
  (hf1 : ∀ (V : (c : Dev nD) → (b : Ref sig .tc) → Buf (Elt Ideal) ((c : Thread nD τ).loc b)) (c : Dev nD), (dat1 (F := Ideal) V c).arrAt 2 cfg1.N = scaleRows (V c main_v36) (V c main_v37))
  (hf2 : ∀ (V : (c : Dev nD) → (b : Ref sig .tc) → Buf (Elt Ideal) ((c : Thread nD τ).loc b)) (c : Dev nD), (dat2 (F := Ideal) V c).arrAt 2 cfg2.N = kMul2 (V c main_v46) (V c main_arg3))
  (hf3 : ∀ (V : (c : Dev nD) → (b : Ref sig .tc) → Buf (Elt Ideal) ((c : Thread nD τ).loc b)) (c : Dev nD), (dat3 (F := Ideal) V c).arrAt 2 cfg3.N = scaleRows (V c main_v54) (V c main_v55))
include hf0 hf1 hf2 hf3

/-! ## After the first stretch: the edge words split out, the arguments as launched -/

theorem b1_arg0 : (W1 m ρ c (Proc.devRef .tc main_arg0) : FVec Ideal S100000x512 .f32) = (m ((c : Thread nD τ).loc main_arg0)) :=
  s0_arg0 (W0 m ρ c)

theorem b1_arg2 : (W1 m ρ c (Proc.devRef .tc main_arg2) : FVec Ideal S512x16 .f32) = (m ((c : Thread nD τ).loc main_arg2)) :=
  s0_arg2 (W0 m ρ c)

theorem b1_arg3 : (W1 m ρ c (Proc.devRef .tc main_arg3) : FVec Ideal S16x16 .f32) = (m ((c : Thread nD τ).loc main_arg3)) :=
  s0_arg3 (W0 m ρ c)

theorem b1_v1 : (W1 m ρ c (Proc.devRef .tc main_v1) : IVec S3200000 32) = (kSrc (m ((c : Thread nD τ).loc main_arg1))) :=
  s0_v1 (W0 m ρ c)

theorem b1_v3 : (W1 m ρ c (Proc.devRef .tc main_v3) : IVec S3200000 32) = (kDst (m ((c : Thread nD τ).loc main_arg1))) :=
  s0_v3 (W0 m ρ c)

/-! ## After the first matmul region -/

theorem b2_v4 : (W2 m ρ c (Proc.devRef .tc main_v4) : FVec Ideal S100000x16 .f32) = (kMul1 (m ((c : Thread nD τ).loc main_arg0)) (m ((c : Thread nD τ).loc main_arg2))) := by
  refine (W2_arr m ρ c 2).trans ?_
  refine (hf0 (V1 m ρ) c).trans ?_
  show kMul1 (W1 m ρ c (Proc.devRef .tc main_arg0)) (W1 m ρ c (Proc.devRef .tc main_arg2)) = _
  rw [b1_arg0 m ρ c hf0 hf1 hf2 hf3, b1_arg2 m ρ c hf0 hf1 hf2 hf3]

theorem b2_arg3 : (W2 m ρ c (Proc.devRef .tc main_arg3) : FVec Ideal S16x16 .f32) = (m ((c : Thread nD τ).loc main_arg3)) :=
  (W2_of_ne m ρ c main_arg3 (by decide)).trans (b1_arg3 m ρ c hf0 hf1 hf2 hf3)

theorem b2_v1 : (W2 m ρ c (Proc.devRef .tc main_v1) : IVec S3200000 32) = (kSrc (m ((c : Thread nD τ).loc main_arg1))) :=
  (W2_of_ne m ρ c main_v1 (by decide)).trans (b1_v1 m ρ c hf0 hf1 hf2 hf3)

theorem b2_v3 : (W2 m ρ c (Proc.devRef .tc main_v3) : IVec S3200000 32) = (kDst (m ((c : Thread nD τ).loc main_arg1))) :=
  (W2_of_ne m ρ c main_v3 (by decide)).trans (b1_v3 m ρ c hf0 hf1 hf2 hf3)

/-! ## After the three stretches before the first scaling region: degrees, factors, coefficients, the looked-up rows -/

theorem b3_v12 : (W3 m ρ c (Proc.devRef .tc main_v12) : IVec S100000 1) = cmpf (F := Ideal) .ogt (kDeg (m ((c : Thread nD τ).loc main_arg1))) (broadcastInDim S100000 ![] bcast_S_S100000 (constant (F := Ideal) S_ .f32 0x00000000#32)) :=
  (s1_v12 (W2 m ρ c)).trans (by rw [b2_v3 m ρ c hf0 hf1 hf2 hf3]; first | done | rfl)

theorem b3_v13 : (W3 m ρ c (Proc.devRef .tc main_v13) : FVec Ideal S100000 .f32) = Host.rsqrt (F := Ideal) (kDeg (m ((c : Thread nD τ).loc main_arg1))) :=
  (s1_v13 (W2 m ρ c)).trans (by rw [b2_v3 m ρ c hf0 hf1 hf2 hf3]; first | done | rfl)

theorem b3_cst_3 : (W3 m ρ c (Proc.devRef .tc main_cst_3) : FVec Ideal S_ .f32) = constant (F := Ideal) S_ .f32 0x00000000#32 :=
  (s1_cst_3 (W2 m ρ c)).trans (by first | done | rfl)

theorem b3_v3 : (W3 m ρ c (Proc.devRef .tc main_v3) : IVec S3200000 32) = (kDst (m ((c : Thread nD τ).loc main_arg1))) :=
  (s1_v3 (W2 m ρ c)).trans (b2_v3 m ρ c hf0 hf1 hf2 hf3)

theorem b3_v1 : (W3 m ρ c (Proc.devRef .tc main_v1) : IVec S3200000 32) = (kSrc (m ((c : Thread nD τ).loc main_arg1))) :=
  (s1_v1 (W2 m ρ c)).trans (b2_v1 m ρ c hf0 hf1 hf2 hf3)

theorem b3_v4 : (W3 m ρ c (Proc.devRef .tc main_v4) : FVec Ideal S100000x16 .f32) = (kMul1 (m ((c : Thread nD τ).loc main_arg0)) (m ((c : Thread nD τ).loc main_arg2))) :=
  (s1_v4 (W2 m ρ c)).trans (b2_v4 m ρ c hf0 hf1 hf2 hf3)

theorem b3_arg3 : (W3 m ρ c (Proc.devRef .tc main_arg3) : FVec Ideal S16x16 .f32) = (m ((c : Thread nD τ).loc main_arg3)) :=
  (s1_arg3 (W2 m ρ c)).trans (b2_arg3 m ρ c hf0 hf1 hf2 hf3)

theorem b4_v14 : (W4 m ρ c (Proc.devRef .tc main_v14) : FVec Ideal S100000 .f32) = (kDis (m ((c : Thread nD τ).loc main_arg1))) :=
  (s11_v14 (W3 m ρ c)).trans (by rw [b3_v12 m ρ c hf0 hf1 hf2 hf3, b3_v13 m ρ c hf0 hf1 hf2 hf3, b3_cst_3 m ρ c hf0 hf1 hf2 hf3]; first | done | rfl)

theorem b4_v3 : (W4 m ρ c (Proc.devRef .tc main_v3) : IVec S3200000 32) = (kDst (m ((c : Thread nD τ).loc main_arg1))) :=
  (s11_v3 (W3 m ρ c)).trans (b3_v3 m ρ c hf0 hf1 hf2 hf3)

theorem b4_v1 : (W4 m ρ c (Proc.devRef .tc main_v1) : IVec S3200000 32) = (kSrc (m ((c : Thread nD τ).loc main_arg1))) :=
  (s11_v1 (W3 m ρ c)).trans (b3_v1 m ρ c hf0 hf1 hf2 hf3)

theorem b4_v4 : (W4 m ρ c (Proc.devRef .tc main_v4) : FVec Ideal S100000x16 .f32) = (kMul1 (m ((c : Thread nD τ).loc main_arg0)) (m ((c : Thread nD τ).loc main_arg2))) :=
  (s11_v4 (W3 m ρ c)).trans (b3_v4 m ρ c hf0 hf1 hf2 hf3)

theorem b4_arg3 : (W4 m ρ c (Proc.devRef .tc main_arg3) : FVec Ideal S16x16 .f32) = (m ((c : Thread nD τ).loc main_arg3)) :=
  (s11_arg3 (W3 m ρ c)).trans (b3_arg3 m ρ c hf0 hf1 hf2 hf3)

theorem b5_v29 : (W5 m ρ c (Proc.devRef .tc main_v29) : FVec Ideal S3200000 .f32) = (kCoef (m ((c : Thread nD τ).loc main_arg1))) :=
  (s12_v29 (W4 m ρ c)).trans (by rw [b4_v14 m ρ c hf0 hf1 hf2 hf3, b4_v1 m ρ c hf0 hf1 hf2 hf3, b4_v3 m ρ c hf0 hf1 hf2 hf3]; first | done | rfl)

theorem b5_v36 : (W5 m ρ c (Proc.devRef .tc main_v36) : FVec Ideal S3200000x16 .f32) = (kPre (m ((c : Thread nD τ).loc main_arg1)) (kMul1 (m ((c : Thread nD τ).loc main_arg0)) (m ((c : Thread nD τ).loc main_arg2)))) :=
  (s12_v36 (W4 m ρ c)).trans (by rw [b4_v1 m ρ c hf0 hf1 hf2 hf3, b4_v4 m ρ c hf0 hf1 hf2 hf3]; first | done | rfl)

theorem b5_v37 : (W5 m ρ c (Proc.devRef .tc main_v37) : FVec Ideal S3200000x1 .f32) = (kCol (m ((c : Thread nD τ).loc main_arg1))) :=
  (s12_v37 (W4 m ρ c)).trans (by rw [b4_v14 m ρ c hf0 hf1 hf2 hf3, b4_v1 m ρ c hf0 hf1 hf2 hf3, b4_v3 m ρ c hf0 hf1 hf2 hf3]; first | done | rfl)

theorem b5_v14 : (W5 m ρ c (Proc.devRef .tc main_v14) : FVec Ideal S100000 .f32) = (kDis (m ((c : Thread nD τ).loc main_arg1))) :=
  (s12_v14 (W4 m ρ c)).trans (b4_v14 m ρ c hf0 hf1 hf2 hf3)

theorem b5_v4 : (W5 m ρ c (Proc.devRef .tc main_v4) : FVec Ideal S100000x16 .f32) = (kMul1 (m ((c : Thread nD τ).loc main_arg0)) (m ((c : Thread nD τ).loc main_arg2))) :=
  (s12_v4 (W4 m ρ c)).trans (b4_v4 m ρ c hf0 hf1 hf2 hf3)

theorem b5_v3 : (W5 m ρ c (Proc.devRef .tc main_v3) : IVec S3200000 32) = (kDst (m ((c : Thread nD τ).loc main_arg1))) :=
  (s12_v3 (W4 m ρ c)).trans (b4_v3 m ρ c hf0 hf1 hf2 hf3)

theorem b5_v1 : (W5 m ρ c (Proc.devRef .tc main_v1) : IVec S3200000 32) = (kSrc (m ((c : Thread nD τ).loc main_arg1))) :=
  (s12_v1 (W4 m ρ c)).trans (b4_v1 m ρ c hf0 hf1 hf2 hf3)

theorem b5_arg3 : (W5 m ρ c (Proc.devRef .tc main_arg3) : FVec Ideal S16x16 .f32) = (m ((c : Thread nD τ).loc main_arg3)) :=
  (s12_arg3 (W4 m ρ c)).trans (b4_arg3 m ρ c hf0 hf1 hf2 hf3)

/-! ## After the first scaling region -/

theorem b6_v38 : (W6 m ρ c (Proc.devRef .tc main_v38) : FVec Ideal S3200000x16 .f32) = (kMsg (m ((c : Thread nD τ).loc main_arg1)) (kMul1 (m ((c : Thread nD τ).loc main_arg0)) (m ((c : Thread nD τ).loc main_arg2)))) := by
  refine (W6_arr m ρ c 2).trans ?_
  refine (hf1 (V5 m ρ) c).trans ?_
  show scaleRows (W5 m ρ c (Proc.devRef .tc main_v36)) (W5 m ρ c (Proc.devRef .tc main_v37)) = _
  rw [b5_v36 m ρ c hf0 hf1 hf2 hf3, b5_v37 m ρ c hf0 hf1 hf2 hf3]; rfl

theorem b6_v14 : (W6 m ρ c (Proc.devRef .tc main_v14) : FVec Ideal S100000 .f32) = (kDis (m ((c : Thread nD τ).loc main_arg1))) :=
  (W6_of_ne m ρ c main_v14 (by decide)).trans (b5_v14 m ρ c hf0 hf1 hf2 hf3)

theorem b6_v29 : (W6 m ρ c (Proc.devRef .tc main_v29) : FVec Ideal S3200000 .f32) = (kCoef (m ((c : Thread nD τ).loc main_arg1))) :=
  (W6_of_ne m ρ c main_v29 (by decide)).trans (b5_v29 m ρ c hf0 hf1 hf2 hf3)

theorem b6_v4 : (W6 m ρ c (Proc.devRef .tc main_v4) : FVec Ideal S100000x16 .f32) = (kMul1 (m ((c : Thread nD τ).loc main_arg0)) (m ((c : Thread nD τ).loc main_arg2))) :=
  (W6_of_ne m ρ c main_v4 (by decide)).trans (b5_v4 m ρ c hf0 hf1 hf2 hf3)

theorem b6_v3 : (W6 m ρ c (Proc.devRef .tc main_v3) : IVec S3200000 32) = (kDst (m ((c : Thread nD τ).loc main_arg1))) :=
  (W6_of_ne m ρ c main_v3 (by decide)).trans (b5_v3 m ρ c hf0 hf1 hf2 hf3)

theorem b6_v1 : (W6 m ρ c (Proc.devRef .tc main_v1) : IVec S3200000 32) = (kSrc (m ((c : Thread nD τ).loc main_arg1))) :=
  (W6_of_ne m ρ c main_v1 (by decide)).trans (b5_v1 m ρ c hf0 hf1 hf2 hf3)

theorem b6_arg3 : (W6 m ρ c (Proc.devRef .tc main_arg3) : FVec Ideal S16x16 .f32) = (m ((c : Thread nD τ).loc main_arg3)) :=
  (W6_of_ne m ρ c main_arg3 (by decide)).trans (b5_arg3 m ρ c hf0 hf1 hf2 hf3)

/-! ## After the stretch before the second matmul region: the first round -/

theorem b7_v46 : (W7 m ρ c (Proc.devRef .tc main_v46) : FVec Ideal S100000x16 .f32) = (kAgg (m ((c : Thread nD τ).loc main_arg1)) (kMul1 (m ((c : Thread nD τ).loc main_arg0)) (m ((c : Thread nD τ).loc main_arg2)))) :=
  (s2_v46 (W6 m ρ c)).trans (by rw [b6_v14 m ρ c hf0 hf1 hf2 hf3, b6_v3 m ρ c hf0 hf1 hf2 hf3, b6_v38 m ρ c hf0 hf1 hf2 hf3, b6_v4 m ρ c hf0 hf1 hf2 hf3]; first | done | rfl)

theorem b7_arg3 : (W7 m ρ c (Proc.devRef .tc main_arg3) : FVec Ideal S16x16 .f32) = (m ((c : Thread nD τ).loc main_arg3)) :=
  (s2_arg3 (W6 m ρ c)).trans (b6_arg3 m ρ c hf0 hf1 hf2 hf3)

theorem b7_v14 : (W7 m ρ c (Proc.devRef .tc main_v14) : FVec Ideal S100000 .f32) = (kDis (m ((c : Thread nD τ).loc main_arg1))) :=
  (s2_v14 (W6 m ρ c)).trans (b6_v14 m ρ c hf0 hf1 hf2 hf3)

theorem b7_v29 : (W7 m ρ c (Proc.devRef .tc main_v29) : FVec Ideal S3200000 .f32) = (kCoef (m ((c : Thread nD τ).loc main_arg1))) :=
  (s2_v29 (W6 m ρ c)).trans (b6_v29 m ρ c hf0 hf1 hf2 hf3)

theorem b7_v3 : (W7 m ρ c (Proc.devRef .tc main_v3) : IVec S3200000 32) = (kDst (m ((c : Thread nD τ).loc main_arg1))) :=
  (s2_v3 (W6 m ρ c)).trans (b6_v3 m ρ c hf0 hf1 hf2 hf3)

theorem b7_v1 : (W7 m ρ c (Proc.devRef .tc main_v1) : IVec S3200000 32) = (kSrc (m ((c : Thread nD τ).loc main_arg1))) :=
  (s2_v1 (W6 m ρ c)).trans (b6_v1 m ρ c hf0 hf1 hf2 hf3)

/-! ## After the second matmul region -/

theorem b8_v47 : (W8 m ρ c (Proc.devRef .tc main_v47) : FVec Ideal S100000x16 .f32) = (kMul2 (kAgg (m ((c : Thread nD τ).loc main_arg1)) (kMul1 (m ((c : Thread nD τ).loc main_arg0)) (m ((c : Thread nD τ).loc main_arg2)))) (m ((c : Thread nD τ).loc main_arg3))) := by
  refine (W8_arr m ρ c 2).trans ?_
  refine (hf2 (V7 m ρ) c).trans ?_
  show kMul2 (W7 m ρ c (Proc.devRef .tc main_v46)) (W7 m ρ c (Proc.devRef .tc main_arg3)) = _
  rw [b7_v46 m ρ c hf0 hf1 hf2 hf3, b7_arg3 m ρ c hf0 hf1 hf2 hf3]

theorem b8_v14 : (W8 m ρ c (Proc.devRef .tc main_v14) : FVec Ideal S100000 .f32) = (kDis (m ((c : Thread nD τ).loc main_arg1))) :=
  (W8_of_ne m ρ c main_v14 (by decide)).trans (b7_v14 m ρ c hf0 hf1 hf2 hf3)

theorem b8_v29 : (W8 m ρ c (Proc.devRef .tc main_v29) : FVec Ideal S3200000 .f32) = (kCoef (m ((c : Thread nD τ).loc main_arg1))) :=
  (W8_of_ne m ρ c main_v29 (by decide)).trans (b7_v29 m ρ c hf0 hf1 hf2 hf3)

theorem b8_v3 : (W8 m ρ c (Proc.devRef .tc main_v3) : IVec S3200000 32) = (kDst (m ((c : Thread nD τ).loc main_arg1))) :=
  (W8_of_ne m ρ c main_v3 (by decide)).trans (b7_v3 m ρ c hf0 hf1 hf2 hf3)

theorem b8_v1 : (W8 m ρ c (Proc.devRef .tc main_v1) : IVec S3200000 32) = (kSrc (m ((c : Thread nD τ).loc main_arg1))) :=
  (W8_of_ne m ρ c main_v1 (by decide)).trans (b7_v1 m ρ c hf0 hf1 hf2 hf3)

/-! ## After the stretch before the second scaling region -/

theorem b9_v54 : (W9 m ρ c (Proc.devRef .tc main_v54) : FVec Ideal S3200000x16 .f32) = (kPre (m ((c : Thread nD τ).loc main_arg1)) (kMul2 (kAgg (m ((c : Thread nD τ).loc main_arg1)) (kMul1 (m ((c : Thread nD τ).loc main_arg0)) (m ((c : Thread nD τ).loc main_arg2)))) (m ((c : Thread nD τ).loc main_arg3)))) :=
  (s3_v54 (W8 m ρ c)).trans (by rw [b8_v1 m ρ c hf0 hf1 hf2 hf3, b8_v47 m ρ c hf0 hf1 hf2 hf3]; first | done | rfl)

theorem b9_v55 : (W9 m ρ c (Proc.devRef .tc main_v55) : FVec Ideal S3200000x1 .f32) = (kCol (m ((c : Thread nD τ).loc main_arg1))) :=
  (s3_v55 (W8 m ρ c)).trans (by rw [b8_v29 m ρ c hf0 hf1 hf2 hf3]; first | done | rfl)

theorem b9_v47 : (W9 m ρ c (Proc.devRef .tc main_v47) : FVec Ideal S100000x16 .f32) = (kMul2 (kAgg (m ((c : Thread nD τ).loc main_arg1)) (kMul1 (m ((c : Thread nD τ).loc main_arg0)) (m ((c : Thread nD τ).loc main_arg2)))) (m ((c : Thread nD τ).loc main_arg3))) :=
  (s3_v47 (W8 m ρ c)).trans (b8_v47 m ρ c hf0 hf1 hf2 hf3)

theorem b9_v14 : (W9 m ρ c (Proc.devRef .tc main_v14) : FVec Ideal S100000 .f32) = (kDis (m ((c : Thread nD τ).loc main_arg1))) :=
  (s3_v14 (W8 m ρ c)).trans (b8_v14 m ρ c hf0 hf1 hf2 hf3)

theorem b9_v3 : (W9 m ρ c (Proc.devRef .tc main_v3) : IVec S3200000 32) = (kDst (m ((c : Thread nD τ).loc main_arg1))) :=
  (s3_v3 (W8 m ρ c)).trans (b8_v3 m ρ c hf0 hf1 hf2 hf3)

/-! ## After the second scaling region -/

theorem b10_v56 : (W10 m ρ c (Proc.devRef .tc main_v56) : FVec Ideal S3200000x16 .f32) = (kMsg (m ((c : Thread nD τ).loc main_arg1)) (kMul2 (kAgg (m ((c : Thread nD τ).loc main_arg1)) (kMul1 (m ((c : Thread nD τ).loc main_arg0)) (m ((c : Thread nD τ).loc main_arg2)))) (m ((c : Thread nD τ).loc main_arg3)))) := by
  refine (W10_arr m ρ c 2).trans ?_
  refine (hf3 (V9 m ρ) c).trans ?_
  show scaleRows (W9 m ρ c (Proc.devRef .tc main_v54)) (W9 m ρ c (Proc.devRef .tc main_v55)) = _
  rw [b9_v54 m ρ c hf0 hf1 hf2 hf3, b9_v55 m ρ c hf0 hf1 hf2 hf3]; rfl

theorem b10_v47 : (W10 m ρ c (Proc.devRef .tc main_v47) : FVec Ideal S100000x16 .f32) = (kMul2 (kAgg (m ((c : Thread nD τ).loc main_arg1)) (kMul1 (m ((c : Thread nD τ).loc main_arg0)) (m ((c : Thread nD τ).loc main_arg2)))) (m ((c : Thread nD τ).loc main_arg3))) :=
  (W10_of_ne m ρ c main_v47 (by decide)).trans (b9_v47 m ρ c hf0 hf1 hf2 hf3)

theorem b10_v14 : (W10 m ρ c (Proc.devRef .tc main_v14) : FVec Ideal S100000 .f32) = (kDis (m ((c : Thread nD τ).loc main_arg1))) :=
  (W10_of_ne m ρ c main_v14 (by decide)).trans (b9_v14 m ρ c hf0 hf1 hf2 hf3)

theorem b10_v3 : (W10 m ρ c (Proc.devRef .tc main_v3) : IVec S3200000 32) = (kDst (m ((c : Thread nD τ).loc main_arg1))) :=
  (W10_of_ne m ρ c main_v3 (by decide)).trans (b9_v3 m ρ c hf0 hf1 hf2 hf3)

/-! ## After the last stretch: the second round is the result -/

/-- THE RESULT BUFFER at the last boundary is the stage term of the four argument arrays as launched. -/
theorem result_eq : (W11 m ρ c (Proc.devRef .tc main_v64) : FVec Ideal S100000x16 .f32) = kOut (m ((c : Thread nD τ).loc main_arg0)) (m ((c : Thread nD τ).loc main_arg1)) (m ((c : Thread nD τ).loc main_arg2)) (m ((c : Thread nD τ).loc main_arg3)) :=
  (s4_v64 (W10 m ρ c)).trans (by rw [b10_v14 m ρ c hf0 hf1 hf2 hf3, b10_v3 m ρ c hf0 hf1 hf2 hf3, b10_v56 m ρ c hf0 hf1 hf2 hf3, b10_v47 m ρ c hf0 hf1 hf2 hf3]; rfl)

end Cert.KernelIdeal.KFold

end
-- ==== Proof.LibColumnLayout.lean ====
/-
  Column forms of three layout operations, read at an index: a vector of `a` entries stood up as an `[a, 1]` column, an
  `[a, 1]` column laid down as a `[1, a]` row (both keep the row-major order, so entry `i` stays entry `i`), and an
  `[a, 1]` column broadcast along its unit axis to `[a, b]` (row `p` is `b` copies of the column's entry `p`).
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the column's entry `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.KValueWords.lean ====
/-
  The kernel program's edge words and layout steps, read at an index.

  Row 0 and row 1 of the edge array, flattened, are the source and target words of the common function. A vector stood up
  as a column keeps entry `e` at `(e, 0)`; a scalar broadcast reads the scalar everywhere; a column broadcast along its unit
  axis reads the column's entry of the row. The program's select / compare / add on a vector of words is, word by word, the
  move of a negative word up by the number of rows.
-/
import proofs.«108763_j6004364280103_2_alg».proof.Proof.KTerm
import proofs.«108763_j6004364280103_2_alg».proof.Proof.GcnSpec
import proofs.«108763_j6004364280103_2_alg».proof.Proof.LibColumnLayout
import Idealize.ShloMosaic.Lib.Pipeline.Value

noncomputable section

open scoped BigOperators

namespace Cert.KernelIdeal.KValue

open Cert.KernelIdeal Cert.KernelIdeal.Gen Cert.KernelIdeal.KTerm Idealize.ShloMosaic Idealize.ShloMosaic.TcCoe
  Idealize.ShloMosaic.ValueIdx

/-! ## Layout steps at an index, for any element type -/

/-- A scalar broadcast to any shape reads the scalar at every index. -/
theorem splat_apply {α : Type} {t : Shape} (dims : Fin 0 → Fin t.rank) (h : (⟨0, ![]⟩ : Shape).BroadcastsInDim t dims)
    (y : (⟨0, ![]⟩ : Shape).Idx → α) (i : t.Idx) : broadcastInDim t dims h y i = y ix0 :=
  broadcastInDim_apply dims h y i ix0 (fun a => a.elim0)

/-- A vector of `n` entries stood up as an `[n, 1]` column reads, at `(e, u)`, the vector at `e`. -/
theorem column_apply {α : Type} {n : ℕ} (h : (⟨1, ![n]⟩ : Shape).BroadcastsInDim ⟨2, ![n, 1]⟩ ![0])
    (v : (⟨1, ![n]⟩ : Shape).Idx → α) (e : Fin n) (u : Fin 1) :
    broadcastInDim ⟨2, ![n, 1]⟩ ![0] h v (ix2 e u) = v (ix1 e) :=
  broadcastInDim_apply ![0] h v (ix2 e u) (ix1 e) (fun a => match a with
    | ⟨0, _⟩ => by
      show e.val = if n = 1 then 0 else e.val
      split
      · have := e.isLt; omega
      · rfl)

/-- An `[a, 1]` column broadcast along its unit axis to `[a, b]` reads, at `(p, c)`, the column's entry `p`. -/
theorem columnAcross_apply {α : Type} {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) :=
  broadcastInDim_apply ![0, 1] h v (ix2 p c) (ix2 p (0 : Fin 1)) (fun ax => match ax with
    | ⟨0, _⟩ => by
      show p.val = if a = 1 then 0 else p.val
      split
      · have := p.isLt; omega
      · rfl
    | ⟨1, _⟩ => by
      show 0 = if (1 : ℕ) = 1 then 0 else c.val
      rw [if_pos rfl])

/-! ## The edge words -/

/-- The flattened row 0 of the edge array at `e` is edge `e`'s source word. -/
theorem kSrc_apply (x1 : IVec S2x3200000 32) (e : Fin 3200000) : kSrc x1 (ix1 e) = Cert.Gcn.srcW x1 e := by
  unfold kSrc Cert.Gcn.srcW
  refine (shapeCast_apply _ shapeCasts_S1x3200000_S3200000 (ix1 e) (ix2 (0 : Fin 1) e) (by
    rewrite [Shape.rowMajor_val_two, Shape.rowMajor_val_one]
    show 0 * 3200000 + e.val = e.val
    omega)).trans ?_
  exact extractStridedSlice_apply ![0, 0] x1 slices_S2x3200000_S1x3200000_0_0 (ix2 (0 : Fin 1) e) (ix2 (0 : Fin 2) e)
    (fun a => match a with
      | ⟨0, _⟩ => by show 0 = 0 + 0; rfl
      | ⟨1, _⟩ => by show e.val = 0 + e.val; omega)

/-- The flattened row 1 of the edge array at `e` is edge `e`'s target word. -/
theorem kDst_apply (x1 : IVec S2x3200000 32) (e : Fin 3200000) : kDst x1 (ix1 e) = Cert.Gcn.dstW x1 e := by
  unfold kDst Cert.Gcn.dstW
  refine (shapeCast_apply _ shapeCasts_S1x3200000_S3200000 (ix1 e) (ix2 (0 : Fin 1) e) (by
    rewrite [Shape.rowMajor_val_two, Shape.rowMajor_val_one]
    show 0 * 3200000 + e.val = e.val
    omega)).trans ?_
  exact extractStridedSlice_apply ![1, 0] x1 slices_S2x3200000_S1x3200000_1_0 (ix2 (0 : Fin 1) e) (ix2 (1 : Fin 2) e)
    (fun a => match a with
      | ⟨0, _⟩ => by show 1 = 1 + 0; rfl
      | ⟨1, _⟩ => by show e.val = 0 + e.val; omega)

/-- The move of the negative words up by the number of rows, word by word. -/
theorem kWrap_apply (v : IVec S3200000 32) (i : S3200000.Idx) : kWrap v i = Cert.Gcn.wrapW (v i) := by
  unfold kWrap Cert.Gcn.wrapW
  show Scalar.select (IntOp.cmpi .slt (v i) (broadcastInDim S3200000 ![] bcast_S_S3200000 (constantI S_ 32 0#32) i))
      (IntOp.addi (v i) (broadcastInDim S3200000 ![] bcast_S_S3200000 (constantI S_ 32 100000#32) i)) (v i) = _
  rw [splat_apply, splat_apply]
  rfl

/-- The column of wrapped source words at `(e, 0)`. -/
theorem wrapSrcCol_apply (x1 : IVec S2x3200000 32) (e : Fin 3200000) :
    broadcastInDim S3200000x1 ![0] bcast_S3200000_S3200000x1_0 (kWrap (kSrc x1)) (ix2 e (0 : Fin 1))
      = Cert.Gcn.wrapW (Cert.Gcn.srcW x1 e) := by
  rw [column_apply, kWrap_apply, kSrc_apply]

/-- The column of wrapped target words at `(e, 0)`. -/
theorem wrapDstCol_apply (x1 : IVec S2x3200000 32) (e : Fin 3200000) :
    broadcastInDim S3200000x1 ![0] bcast_S3200000_S3200000x1_0 (kWrap (kDst x1)) (ix2 e (0 : Fin 1))
      = Cert.Gcn.wrapW (Cert.Gcn.dstW x1 e) := by
  rw [column_apply, kWrap_apply, kDst_apply]

/-- The column of target words at `(e, 0)`. -/
theorem dstCol_apply (x1 : IVec S2x3200000 32) (e : Fin 3200000) :
    broadcastInDim S3200000x1 ![0] bcast_S3200000_S3200000x1_0 (kDst x1) (ix2 e (0 : Fin 1)) = Cert.Gcn.dstW x1 e := by
  rw [column_apply, kDst_apply]

end Cert.KernelIdeal.KValue

end
-- ==== Proof.LibFlatGather.lean ====
/-
  A gather of scalars indexed by data, read at an index.

  `x[idx]` over an `[R]` table of scalars (one index per result entry, carried as an `[N, 1]` array of words) reads the
  table at `min (toNat idx) (R - 1)`: the word read signed and CLAMPED into `[0, R - 1]` — the same row `clampRow` names
  for the gather of whole rows.
-/
import proofs.«108763_j6004364280103_2_alg».proof.Proof.LibRowIndex

noncomputable section

namespace Cert.RowIndex

open Idealize.ShloMosaic Idealize.ShloMosaic.ValueIdx

/-- A gather of scalars from an `[R]` table, the entry named by an `[N, 1]` array of words. -/
abbrev flatGather (R N : Nat) (wf : GatherDims.WF ⟨1, ![R]⟩ ⟨2, ![N, 1]⟩ ⟨1, ![N]⟩ [] [0] [] [0] [] 1 ![1]) :
    GatherDims ⟨1, ![R]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

variable {R N w : Nat}

/-- THE FLAT GATHER READ AT `n`: the table at entry `clampRow` of the `n`-th index word. -/
theorem flatGather_apply {α : Type} (hR : 0 < R)
    (wf : GatherDims.WF ⟨1, ![R]⟩ ⟨2, ![N, 1]⟩ ⟨1, ![N]⟩ [] [0] [] [0] [] 1 ![1])
    (x : (⟨1, ![R]⟩ : Shape).Idx → α) (idx : IVec ⟨2, ![N, 1]⟩ w) (n : Fin N) :
    Host.gather (flatGather R N wf) x idx (ix1 n) = x (ix1 (clampRow R hR (idx (ix2 n (0 : Fin 1))))) := by
  unfold Host.gather
  congr 1
  funext a
  refine Fin.ext ?_
  match a with
  | ⟨0, _⟩ =>
    show (flatGather R N wf).start (ix1 n) idx 0 + (flatGather R N wf).batchCoord (ix1 n) 0
      + (flatGather R N wf).offCoord (ix1 n) 0 = min (idx (ix2 n (0 : Fin 1))).toInt.toNat (R - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (flatGather R N wf).startIndexMap from List.mem_singleton.mpr rfl)]
    have hsi : (flatGather R N wf).siIdx (ix1 n) ⟨List.idxOf (0 : Fin 1) (flatGather R N wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl

end Cert.RowIndex

end
-- ==== Proof.KValueCoef.lean ====
/-
  The kernel program's degrees, factors and edge coefficients are the common function's.

  A node's degree is read off the flat accumulation entry by entry: zero, plus a one for every edge whose target word,
  read signed, is the node, plus the one the program adds for the node's loop. Its factor is the inverse square root of the
  degree where that is positive and zero elsewhere; an edge's coefficient is the product of the factors looked up at the
  rows its two wrapped words name (each clamped into the table). No arithmetic law is used: the program writes these in the
  order the common function does.
-/
import proofs.«108763_j6004364280103_2_alg».proof.Proof.KValueWords
import proofs.«108763_j6004364280103_2_alg».proof.Proof.LibFlatGather

noncomputable section

open scoped BigOperators

namespace Cert.KernelIdeal.KValue

open Cert.KernelIdeal Cert.KernelIdeal.Gen Cert.KernelIdeal.KTerm Idealize.ShloMosaic Idealize.ShloMosaic.TcCoe
  Idealize.ShloMosaic.ValueIdx

/-! ## The program's dimension numbers are the ones the index lemmas are stated for -/

theorem flatScatter_eq : scatter_S100000_S3200000x1_S3200000_n_0_0_1
    = Cert.RowIndex.flatScatter 100000 3200000 scatter_S100000_S3200000x1_S3200000_n_0_0_1_wf := rfl

theorem flatGather_eq : gather_S100000_S3200000x1_S3200000_n_0_n_n_0_1_1
    = Cert.RowIndex.flatGather 100000 3200000 gather_S100000_S3200000x1_S3200000_n_0_n_n_0_1_1_wf := rfl

theorem rowScatter_eq : scatter_S100000x16_S3200000x1_S3200000x16_1_0_0_1
    = Cert.RowIndex.rowScatter 100000 16 3200000 scatter_S100000x16_S3200000x1_S3200000x16_1_0_0_1_wf := rfl

theorem rowGather_eq : gather_S100000x16_S3200000x1_S3200000x16_1_0_n_n_0_1_116
    = Cert.RowIndex.rowGather 100000 16 3200000 gather_S100000x16_S3200000x1_S3200000x16_1_0_n_n_0_1_116_wf := rfl

/-- The edges whose target-word column entry, read signed, is `k` are the edges accumulated at `k`. -/
theorem hits_eq (x1 : IVec S2x3200000 32) (k : Fin 100000) :
    (Finset.univ.filter fun n : Fin 3200000 =>
      (broadcastInDim S3200000x1 ![0] bcast_S3200000_S3200000x1_0 (kDst x1) (ix2 n (0 : Fin 1))).toInt = (k.val : ℤ))
      = Cert.Gcn.hits x1 k := by
  unfold Cert.Gcn.hits
  refine Finset.filter_congr fun n _ => ?_
  rw [dstCol_apply]

/-! ## Degrees, factors, coefficients -/

set_option maxHeartbeats 400000 in
/-- A node's degree. -/
theorem kDeg_apply (x1 : IVec S2x3200000 32) (k : Fin 100000) : kDeg x1 (ix1 k) = Cert.Gcn.degree x1 k := by
  unfold kDeg Cert.Gcn.degree
  rw [addf_apply, flatScatter_eq, Cert.RowIndex.flatScatterAdd_apply, hits_eq, splat_apply, splat_apply]
  refine congrArg₂ (· + ·) (congrArg₂ (· + ·) rfl (Finset.sum_congr rfl fun n _ => ?_)) rfl
  rw [splat_apply]
  rfl

/-- The host's inverse square root of a vector, entry by entry. -/
theorem hostRsqrt_apply {s : Shape} {φ : FTy} (x : FVec Ideal s φ) (i : s.Idx) :
    Host.rsqrt x i = FloatOps.hostUnary (F := Ideal) .rsqrt (x i) := rfl

set_option maxHeartbeats 400000 in
/-- A node's factor. -/
theorem kDis_apply (x1 : IVec S2x3200000 32) (k : Fin 100000) : kDis x1 (ix1 k) = Cert.Gcn.dis x1 k := by
  unfold kDis Cert.Gcn.dis Cert.Gcn.disOf
  rw [select_apply, cmpf_apply, splat_apply, splat_apply, hostRsqrt_apply, kDeg_apply]
  rfl

set_option maxHeartbeats 400000 in
/-- An edge's coefficient. -/
theorem kCoef_apply (x1 : IVec S2x3200000 32) (e : Fin 3200000) : kCoef x1 (ix1 e) = Cert.Gcn.coef x1 e := by
  unfold kCoef Cert.Gcn.coef
  rw [mulf_apply, flatGather_eq, Cert.RowIndex.flatGather_apply (by norm_num), Cert.RowIndex.flatGather_apply (by norm_num),
    wrapSrcCol_apply, wrapDstCol_apply, kDis_apply, kDis_apply]
  rfl

/-- The coefficients as a column, at `(e, 0)`. -/
theorem kCol_apply (x1 : IVec S2x3200000 32) (e : Fin 3200000) : kCol x1 (ix2 e (0 : Fin 1)) = Cert.Gcn.coef x1 e := by
  unfold kCol
  rw [Cert.ColumnLayout.shapeCast_a_a1_apply, kCoef_apply]

end Cert.KernelIdeal.KValue

end
-- ==== Proof.KValue.lean ====
/-
  The kernel program's result is the common function of the argument arrays.

  One round, read at `(k, f)`: the row accumulation gives zero plus, over the edges whose target word read signed is `k`,
  the scaled row's entry — the table's entry at the row the edge's wrapped source word names (clamped) times the edge's
  coefficient — and the program adds the loop term `dis k · dis k · h k f`. That is the common function's round as written,
  term for term. The two matrix products are the common function's sums of products as written. The result is a round
  on the first product, the second product, and a second round.
-/
import proofs.«108763_j6004364280103_2_alg».proof.Proof.KValueCoef

noncomputable section

open scoped BigOperators

namespace Cert.KernelIdeal.KValue

open Cert.KernelIdeal Cert.KernelIdeal.Gen Cert.KernelIdeal.KTerm Idealize.ShloMosaic Idealize.ShloMosaic.TcCoe
  Idealize.ShloMosaic.ValueIdx

/-! ## One round -/

set_option maxHeartbeats 400000 in
/-- The table's rows looked up at the edges' sources, at `(e, f)`. -/
theorem kPre_apply (x1 : IVec S2x3200000 32) (h : FVec Ideal S100000x16 .f32) (e : Fin 3200000) (f : Fin 16) :
    kPre x1 h (ix2 e f) = h (ix2 (Cert.Gcn.rowOf (Cert.Gcn.srcW x1 e)) f) := by
  unfold kPre
  rw [rowGather_eq, Cert.RowIndex.rowGather_apply (by norm_num), wrapSrcCol_apply]
  rfl

set_option maxHeartbeats 400000 in
/-- The scaled rows, at `(e, f)`. -/
theorem kMsg_apply (x1 : IVec S2x3200000 32) (h : FVec Ideal S100000x16 .f32) (e : Fin 3200000) (f : Fin 16) :
    kMsg x1 h (ix2 e f) = h (ix2 (Cert.Gcn.rowOf (Cert.Gcn.srcW x1 e)) f) * Cert.Gcn.coef x1 e := by
  show kPre x1 h (ix2 e f) * kCol x1 (ix2 e (0 : Fin 1)) = _
  rw [kPre_apply, kCol_apply]

set_option maxHeartbeats 400000 in
/-- One round of the program is one round of the common function. -/
theorem kAgg_apply (x1 : IVec S2x3200000 32) (h : FVec Ideal S100000x16 .f32) (k : Fin 100000) (f : Fin 16) :
    kAgg x1 h (ix2 k f) = Cert.Gcn.conv x1 (fun r g => h (ix2 r g)) k f := by
  unfold kAgg Cert.Gcn.conv
  rw [addf_apply, rowScatter_eq, Cert.RowIndex.rowScatterAdd_apply, hits_eq, splat_apply, mulf_apply, columnAcross_apply,
    column_apply, mulf_apply, kDis_apply]
  refine congrArg₂ (· + ·) (congrArg₂ (· + ·) rfl (Finset.sum_congr rfl fun n _ => ?_)) rfl
  rw [kMsg_apply]

/-! ## The two products -/

/-- The first product, at `(r, f)`. -/
theorem kMul1_apply (x0 : FVec Ideal S100000x512 .f32) (x2 : FVec Ideal S512x16 .f32) (r : Fin 100000) (f : Fin 16) :
    kMul1 x0 x2 (ix2 r f) = Cert.Gcn.lin1 x0 x2 r f := rfl

/-- The second product, at `(r, f)`. -/
theorem kMul2_apply (h : FVec Ideal S100000x16 .f32) (x3 : FVec Ideal S16x16 .f32) (r : Fin 100000) (f : Fin 16) :
    kMul2 h x3 (ix2 r f) = Cert.Gcn.lin2 (fun r g => h (ix2 r g)) x3 r f := rfl

/-! ## The result -/

set_option maxHeartbeats 400000 in
/-- The table after the program's first round is the common function's. -/
theorem layer1_eq (x0 : FVec Ideal S100000x512 .f32) (x1 : IVec S2x3200000 32) (x2 : FVec Ideal S512x16 .f32) :
    (fun r g => kAgg x1 (kMul1 x0 x2) (ix2 r g)) = Cert.Gcn.layer1 x0 x1 x2 := by
  funext r g
  rw [kAgg_apply]
  have hL : (fun r g => kMul1 x0 x2 (ix2 r g)) = Cert.Gcn.lin1 x0 x2 := by
    funext r g
    exact kMul1_apply x0 x2 r g
  rw [hL]
  rfl

set_option maxHeartbeats 400000 in
/-- THE KERNEL PROGRAM'S RESULT TERM IS THE COMMON FUNCTION. -/
theorem kOut_eq (x0 : FVec Ideal S100000x512 .f32) (x1 : IVec S2x3200000 32) (x2 : FVec Ideal S512x16 .f32)
    (x3 : FVec Ideal S16x16 .f32) : Cert.KernelIdeal.KTerm.kOut x0 x1 x2 x3 = Cert.Gcn.out x0 x1 x2 x3 := by
  funext i
  obtain ⟨k, f, rfl⟩ : ∃ (k : Fin 100000) (f : Fin 16), i = ix2 k f := ⟨i 0, i 1, eq_ix2 i⟩
  rw [Cert.Gcn.out_apply]
  unfold kOut
  rw [kAgg_apply]
  have hT : (fun r g => kMul2 (kAgg x1 (kMul1 x0 x2)) x3 (ix2 r g)) = Cert.Gcn.lin2 (Cert.Gcn.layer1 x0 x1 x2) x3 := by
    funext r g
    rw [kMul2_apply, layer1_eq]
  rw [hT]

end Cert.KernelIdeal.KValue

end
-- ==== Proof.RegionScale.lean ====
/-
  What the two row-scaling regions of the kernel program leave in their output arrays, each as one whole-array
  function of the region's two input arrays as the region finds them, at exact arithmetic.

  A scaling region walks a table of 3200000 rows and 16 lanes in 400 blocks of 8000 rows. At each block it reads the
  block of the table and the matching 8000 entries of a one-lane column, broadcasts the column along the 16 lanes and
  multiplies entry by entry: out[r, l] = table[r, l] * column[r, 0]. The blocks of the three windows move together
  (block t of each is rows 8000 t … 8000 t + 7999), so what block t writes back is block t of the function
  i ↦ table i * column (i₀, 0) of the whole arrays, and the 400 blocks cover every row (row r lies in block r / 8000);
  hence the output array ends holding that function.
-/
import proofs.«108763_j6004364280103_2_alg».proof.Proof.Gen.KernelIdeal.Frame
import proofs.«108763_j6004364280103_2_alg».proof.Proof.LibColumnLayout
import Idealize.ShloMosaic.Lib.Pipeline.Value
import Idealize.ShloMosaic.Lib.ValueIdx

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 1: the scaling  out[r, l] = msg[r, l] * norm[r, 0]  over 3200000 rows in 400 blocks of 8000 -/

/-- The payload at an index: entry (p, q) of the message block times entry p of the norm column. -/
theorem scalePay1_apply (x0 : Vec Ideal S8000x16 .f32) (x1 : Vec Ideal S8000x1 .f32) (p : Fin 8000) (q : Fin 16) :
    k1_pay1 x0 x1 (ix2 p q) = x0 (ix2 p q) * x1 (ix2 p (0 : Fin 1)) := by
  unfold k1_pay1
  rw [mulf_apply, shapeCast_self, shapeCast_self, Cert.ColumnLayout.broadcastTo_a1_ab_apply]

theorem scalePay1_at (x0 : Vec Ideal S8000x16 .f32) (x1 : Vec Ideal S8000x1 .f32) (j : S8000x16.Idx) :
    k1_pay1 x0 x1 j = x0 j * x1 (ix2 (j 0) (0 : Fin 1)) := by
  obtain ⟨p, q, rfl⟩ : ∃ (p : Fin 8000) (q : Fin 16), j = ix2 p q := ⟨j 0, j 1, eq_ix2 j⟩
  exact scalePay1_apply x0 x1 p q

/-- The whole-array function: every row of the message table scaled by that row's norm. -/
abbrev scaled1 (a0 : S3200000x16.Idx → Elt Ideal .f32) (a1 : S3200000x1.Idx → Elt Ideal .f32) : S3200000x16.Idx → Elt Ideal .f32 :=
  fun i => a0 i * a1 (ix2 (i 0) (0 : Fin 1))

/-- A product of two reads is the scaled table at an index once the reads are where that index says. -/
theorem scaled1_of_reads (a0 : S3200000x16.Idx → Elt Ideal .f32) (a1 : S3200000x1.Idx → Elt Ideal .f32)
    (i0 i2 : S3200000x16.Idx) (i1 : S3200000x1.Idx) (h0 : i0 = i2) (h1 : i1 = ix2 (i2 0) (0 : Fin 1)) :
    a0 i0 * a1 i1 = scaled1 a0 a1 i2 := by
  subst h0 h1; rfl

/-- The program's index maps over the grid: both inputs' row blocks move with the output's, the output's row block
    at point t is t, every lane block is 0. -/
theorem idx_facts1 : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = 0
    ∧ win1_2.index t (0 : Fin 2) = t.val
    ∧ win1_2.index t (1 : Fin 2) = 0 :=
  (by decide +kernel : ∀ t : Fin grid1.N, _)

/-- What point t writes back is block t of the scaled table. -/
theorem flushed1_eq (c : Dev nD) (t : Fin cfg1.N) :
    (dat1 V c).flushed 2 t = ((cfg1.win 2).blk t).view.read (Elt Ideal) (scaled1 (V c main_v36) (V c main_v37)) := by
  show (cfg1.win 2).cut (grid1.coords t) ((dat1 V c).after 2 t) = _
  rw [after1_2]
  unfold out1_2
  rw [View.canon_unit_zero hz]
  simp only [View.ld_unit_zero (S := S8000x16) hz, View.ld_unit_zero (S := S8000x1) hz]
  obtain ⟨e0, e1, e2, e3, e4, e5⟩ := idx_facts1 t
  funext j
  refine (scalePay1_at _ _ j).trans ?_
  have h0 : ((cfg1.win 0).blk t).view.emb j = ((cfg1.win 2).blk t).view.emb j := by
    funext a; apply Fin.ext
    match a with
    | ⟨0, _⟩ => show win1_0.index t (0 : Fin 2) * 8000 + 1 * (j 0).val = win1_2.index t (0 : Fin 2) * 8000 + 1 * (j 0).val; omega
    | ⟨1, _⟩ => show win1_0.index t (1 : Fin 2) * 16 + 1 * (j 1).val = win1_2.index t (1 : Fin 2) * 16 + 1 * (j 1).val; omega
  have h1 : ((cfg1.win 1).blk t).view.emb (ix2 (j 0) (0 : Fin 1)) = ix2 ((((cfg1.win 2).blk t).view.emb j) 0) (0 : Fin 1) := by
    funext a; apply Fin.ext
    match a with
    | ⟨0, _⟩ => show win1_1.index t (0 : Fin 2) * 8000 + 1 * (j 0).val = win1_2.index t (0 : Fin 2) * 8000 + 1 * (j 0).val; omega
    | ⟨1, _⟩ => show win1_1.index t (1 : Fin 2) * 1 + 1 * 0 = 0; omega
  exact scaled1_of_reads (V c main_v36) (V c main_v37) _ _ _ h0 h1

/-- An index of the output array is in point t's block iff each coordinate is in the block's range on its axis. -/
theorem mem_blk1 (t : Fin cfg1.N) (i : S3200000x16.Idx) :
    i ∈ ((cfg1.win 2).blk t).view.set ↔ ∀ a : Fin 2, win1_2.index t a * S8000x16.size a ≤ (i a).val ∧ (i a).val < win1_2.index t a * S8000x16.size a + S8000x16.size a := by
  show i ∈ ((View.whole main_v38).slice (win1_2.rect t)).set ↔ _
  rw [View.set_slice_whole, Rect.mem_set_unit]
  exact Iff.rfl

/-- Every index of the output array is in some point's block: row r is in block r / 8000. -/
theorem cover1 (i : S3200000x16.Idx) :
    ∃ t : Fin cfg1.N, (cfg1.win 2).flush t = true ∧ i ∈ ((cfg1.win 2).blk t).view.set := by
  have hi0 : (i 0).val < 3200000 := (i 0).isLt
  have hi1 : (i 1).val < 16 := (i 1).isLt
  have hN : cfg1.N = 400 := rfl
  let t : Fin cfg1.N := ⟨(i 0).val / 8000, by rw [hN]; omega⟩
  obtain ⟨e0, e1, e2, e3, e4, e5⟩ := idx_facts1 t
  have e4' : win1_2.index t (0 : Fin 2) = (i 0).val / 8000 := e4
  refine ⟨t, flush1_2 t, ?_⟩
  rw [mem_blk1]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 16 ≤ (i 1).val ∧ (i 1).val < win1_2.index t (1 : Fin 2) * 16 + 16; omega

/-- The output array when the region ends: the message table as the region finds it, every row scaled by its norm. -/
theorem final1 (c : Dev nD) :
    (dat1 V c).arrAt 2 cfg1.N = scaled1 (V c main_v36) (V c main_v37) :=
  (dat1 V c).arrAt_eq_of_cover 2 (scaled1 (V c main_v36) (V c main_v37)) (fun t _ => flushed1_eq V c t) (cover1)

/-! ## Region 3: the scaling  out[r, l] = msg[r, l] * norm[r, 0]  over 3200000 rows in 400 blocks of 8000 -/

/-- The payload at an index: entry (p, q) of the message block times entry p of the norm column. -/
theorem scalePay3_apply (x0 : Vec Ideal S8000x16 .f32) (x1 : Vec Ideal S8000x1 .f32) (p : Fin 8000) (q : Fin 16) :
    k3_pay1 x0 x1 (ix2 p q) = x0 (ix2 p q) * x1 (ix2 p (0 : Fin 1)) := by
  unfold k3_pay1
  rw [mulf_apply, shapeCast_self, shapeCast_self, Cert.ColumnLayout.broadcastTo_a1_ab_apply]

theorem scalePay3_at (x0 : Vec Ideal S8000x16 .f32) (x1 : Vec Ideal S8000x1 .f32) (j : S8000x16.Idx) :
    k3_pay1 x0 x1 j = x0 j * x1 (ix2 (j 0) (0 : Fin 1)) := by
  obtain ⟨p, q, rfl⟩ : ∃ (p : Fin 8000) (q : Fin 16), j = ix2 p q := ⟨j 0, j 1, eq_ix2 j⟩
  exact scalePay3_apply x0 x1 p q

/-- The whole-array function: every row of the message table scaled by that row's norm. -/
abbrev scaled3 (a0 : S3200000x16.Idx → Elt Ideal .f32) (a1 : S3200000x1.Idx → Elt Ideal .f32) : S3200000x16.Idx → Elt Ideal .f32 :=
  fun i => a0 i * a1 (ix2 (i 0) (0 : Fin 1))

/-- A product of two reads is the scaled table at an index once the reads are where that index says. -/
theorem scaled3_of_reads (a0 : S3200000x16.Idx → Elt Ideal .f32) (a1 : S3200000x1.Idx → Elt Ideal .f32)
    (i0 i2 : S3200000x16.Idx) (i1 : S3200000x1.Idx) (h0 : i0 = i2) (h1 : i1 = ix2 (i2 0) (0 : Fin 1)) :
    a0 i0 * a1 i1 = scaled3 a0 a1 i2 := by
  subst h0 h1; rfl

/-- The program's index maps over the grid: both inputs' row blocks move with the output's, the output's row block
    at point t is t, every lane block is 0. -/
theorem idx_facts3 : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = 0
    ∧ win3_2.index t (0 : Fin 2) = t.val
    ∧ win3_2.index t (1 : Fin 2) = 0 :=
  (by decide +kernel : ∀ t : Fin grid3.N, _)

/-- What point t writes back is block t of the scaled table. -/
theorem flushed3_eq (c : Dev nD) (t : Fin cfg3.N) :
    (dat3 V c).flushed 2 t = ((cfg3.win 2).blk t).view.read (Elt Ideal) (scaled3 (V c main_v54) (V c main_v55)) := by
  show (cfg3.win 2).cut (grid3.coords t) ((dat3 V c).after 2 t) = _
  rw [after3_2]
  unfold out3_2
  rw [View.canon_unit_zero hz]
  simp only [View.ld_unit_zero (S := S8000x16) hz, View.ld_unit_zero (S := S8000x1) hz]
  obtain ⟨e0, e1, e2, e3, e4, e5⟩ := idx_facts3 t
  funext j
  refine (scalePay3_at _ _ j).trans ?_
  have h0 : ((cfg3.win 0).blk t).view.emb j = ((cfg3.win 2).blk t).view.emb j := by
    funext a; apply Fin.ext
    match a with
    | ⟨0, _⟩ => show win3_0.index t (0 : Fin 2) * 8000 + 1 * (j 0).val = win3_2.index t (0 : Fin 2) * 8000 + 1 * (j 0).val; omega
    | ⟨1, _⟩ => show win3_0.index t (1 : Fin 2) * 16 + 1 * (j 1).val = win3_2.index t (1 : Fin 2) * 16 + 1 * (j 1).val; omega
  have h1 : ((cfg3.win 1).blk t).view.emb (ix2 (j 0) (0 : Fin 1)) = ix2 ((((cfg3.win 2).blk t).view.emb j) 0) (0 : Fin 1) := by
    funext a; apply Fin.ext
    match a with
    | ⟨0, _⟩ => show win3_1.index t (0 : Fin 2) * 8000 + 1 * (j 0).val = win3_2.index t (0 : Fin 2) * 8000 + 1 * (j 0).val; omega
    | ⟨1, _⟩ => show win3_1.index t (1 : Fin 2) * 1 + 1 * 0 = 0; omega
  exact scaled3_of_reads (V c main_v54) (V c main_v55) _ _ _ h0 h1

/-- An index of the output array is in point t's block iff each coordinate is in the block's range on its axis. -/
theorem mem_blk3 (t : Fin cfg3.N) (i : S3200000x16.Idx) :
    i ∈ ((cfg3.win 2).blk t).view.set ↔ ∀ a : Fin 2, win3_2.index t a * S8000x16.size a ≤ (i a).val ∧ (i a).val < win3_2.index t a * S8000x16.size a + S8000x16.size a := by
  show i ∈ ((View.whole main_v56).slice (win3_2.rect t)).set ↔ _
  rw [View.set_slice_whole, Rect.mem_set_unit]
  exact Iff.rfl

/-- Every index of the output array is in some point's block: row r is in block r / 8000. -/
theorem cover3 (i : S3200000x16.Idx) :
    ∃ t : Fin cfg3.N, (cfg3.win 2).flush t = true ∧ i ∈ ((cfg3.win 2).blk t).view.set := by
  have hi0 : (i 0).val < 3200000 := (i 0).isLt
  have hi1 : (i 1).val < 16 := (i 1).isLt
  have hN : cfg3.N = 400 := rfl
  let t : Fin cfg3.N := ⟨(i 0).val / 8000, by rw [hN]; omega⟩
  obtain ⟨e0, e1, e2, e3, e4, e5⟩ := idx_facts3 t
  have e4' : win3_2.index t (0 : Fin 2) = (i 0).val / 8000 := e4
  refine ⟨t, flush3_2 t, ?_⟩
  rw [mem_blk3]
  intro a
  match a with
  | ⟨0, _⟩ => show win3_2.index t (0 : Fin 2) * 8000 ≤ (i 0).val ∧ (i 0).val < win3_2.index t (0 : Fin 2) * 8000 + 8000; omega
  | ⟨1, _⟩ => show win3_2.index t (1 : Fin 2) * 16 ≤ (i 1).val ∧ (i 1).val < win3_2.index t (1 : Fin 2) * 16 + 16; omega

/-- The output array when the region ends: the message table as the region finds it, every row scaled by its norm. -/
theorem final3 (c : Dev nD) :
    (dat3 V c).arrAt 2 cfg3.N = scaled3 (V c main_v54) (V c main_v55) :=
  (dat3 V c).arrAt_eq_of_cover 2 (scaled3 (V c main_v54) (V c main_v55)) (fun t _ => flushed3_eq V c t) (cover3)

end Cert.KernelIdeal.RegionValue
end
-- ==== Proof.RegionMatmul.lean ====
/-
  What the two matrix-product regions of the kernel program leave in their output arrays, each as one whole-array
  function of the region's two input arrays as the region finds them, at exact arithmetic.

  A product region walks a table of 100000 rows in blocks of rows (50 blocks of 2000 rows of 512 entries; 10 blocks
  of 10000 rows of 16 entries); the weight matrix (512 × 16; 16 × 16) is one block, the same at every step. At each
  block it casts both operands to the matrix unit's input format (the identity in exact arithmetic), multiplies, and stores the
  block of the result: out[r, l] = ∑ₖ table[r, k] * weight[k, l]. The table's and the result's row blocks move together
  (block t is rows t·b … t·b + b − 1), so what block t writes back is block t of the function
  i ↦ ∑ₖ table (i₀, k) * weight (k, i₁) of the whole arrays, and the blocks cover every row (row r lies in block
  r / b); hence the output array ends holding that function.
-/
import proofs.«108763_j6004364280103_2_alg».proof.Proof.Gen.KernelIdeal.Frame
import proofs.«108763_j6004364280103_2_alg».proof.Proof.LibColumnLayout
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-! ## Region 0: the matrix product  out[r, l] = ∑ₖ a[r, k] * w[k, l] -/

theorem lhs0_0 (i : S2000x16.Idx) (q : dot_S2000x512_S512x16_S2000x16_1_0_0_1_n_n.contr.Idx) :
    (dot_S2000x512_S512x16_S2000x16_1_0_0_1_n_n.lhsIdx i q 0).val = (i 0).val := by
  unfold DotDims.lhsIdx
  rw [dif_neg (show ¬(0 : Fin S2000x512.rank) ∈ dot_S2000x512_S512x16_S2000x16_1_0_0_1_n_n.lhsBatch by decide), dif_pos (show (0 : Fin S2000x512.rank) ∈ dot_S2000x512_S512x16_S2000x16_1_0_0_1_n_n.lhsNonContracting by decide)]
  rfl
theorem lhs0_1 (i : S2000x16.Idx) (q : dot_S2000x512_S512x16_S2000x16_1_0_0_1_n_n.contr.Idx) :
    (dot_S2000x512_S512x16_S2000x16_1_0_0_1_n_n.lhsIdx i q 1).val = (q ⟨0, by decide⟩).val :=
  dot_S2000x512_S512x16_S2000x16_1_0_0_1_n_n.lhsIdx_val_of_single rfl i q
theorem rhs0_0 (i : S2000x16.Idx) (q : dot_S2000x512_S512x16_S2000x16_1_0_0_1_n_n.contr.Idx) :
    (dot_S2000x512_S512x16_S2000x16_1_0_0_1_n_n.rhsIdx i q 0).val = (q ⟨0, by decide⟩).val :=
  dot_S2000x512_S512x16_S2000x16_1_0_0_1_n_n.rhsIdx_val_of_single rfl i q
theorem rhs0_1 (i : S2000x16.Idx) (q : dot_S2000x512_S512x16_S2000x16_1_0_0_1_n_n.contr.Idx) :
    (dot_S2000x512_S512x16_S2000x16_1_0_0_1_n_n.rhsIdx i q 1).val = (i 1).val := by
  unfold DotDims.rhsIdx
  rw [dif_neg (show ¬(1 : Fin S512x16.rank) ∈ dot_S2000x512_S512x16_S2000x16_1_0_0_1_n_n.rhsBatch by decide), dif_pos (show (1 : Fin S512x16.rank) ∈ dot_S2000x512_S512x16_S2000x16_1_0_0_1_n_n.rhsNonContracting by decide)]
  rfl

/-- The matrix unit's product at an index: row p of the left block against column q of the right one. -/
theorem matmul0_apply (y0 : FVec Ideal S2000x512 .bf16) (y1 : FVec Ideal S512x16 .bf16) (p : Fin 2000) (q : Fin 16) :
    FloatOps.matmul dot_S2000x512_S512x16_S2000x16_1_0_0_1_n_n none y0 y1 (constant (F := Ideal) S2000x16 .f32 0x00000000#32) (ix2 p q)
      = ∑ k : Fin 512, y0 (ix2 p k) * y1 (ix2 k q) := by
  rw [Ideal.matmul_constant_zero_apply, ← Equiv.sum_comp (contrEquiv1 dot_S2000x512_S512x16_S2000x16_1_0_0_1_n_n 512 rfl rfl).symm]
  refine Finset.sum_congr rfl fun k _ => ?_
  have hk := contrEquiv1_symm_val dot_S2000x512_S512x16_S2000x16_1_0_0_1_n_n 512 rfl rfl k
  have el : dot_S2000x512_S512x16_S2000x16_1_0_0_1_n_n.lhsIdx (ix2 p q) ((contrEquiv1 dot_S2000x512_S512x16_S2000x16_1_0_0_1_n_n 512 rfl rfl).symm k) = ix2 p k := funext fun a => Fin.ext (by
    match a with
    | ⟨0, _⟩ => exact lhs0_0 _ _
    | ⟨1, _⟩ => exact (lhs0_1 _ _).trans hk)
  have er : dot_S2000x512_S512x16_S2000x16_1_0_0_1_n_n.rhsIdx (ix2 p q) ((contrEquiv1 dot_S2000x512_S512x16_S2000x16_1_0_0_1_n_n 512 rfl rfl).symm k) = ix2 k q := funext fun a => Fin.ext (by
    match a with
    | ⟨0, _⟩ => exact (rhs0_0 _ _).trans hk
    | ⟨1, _⟩ => exact rhs0_1 _ _)
  rw [el, er]

/-- The payload at an index: the casts to the matrix unit's input format are the identity in exact arithmetic, so
    entry (p, q) is row p of the left block against column q of the right block. -/
theorem mmPay0_apply (x0 : Vec Ideal S2000x512 .f32) (x1 : Vec Ideal S512x16 .f32) (p : Fin 2000) (q : Fin 16) :
    k0_pay1 x0 x1 (ix2 p q) = ∑ k : Fin 512, x0 (ix2 p k) * x1 (ix2 k q) := by
  unfold k0_pay1
  exact matmul0_apply (truncf .bf16 x0 bitsLt_bf16_f32) (truncf .bf16 x1 bitsLt_bf16_f32) p q

theorem mmPay0_at (x0 : Vec Ideal S2000x512 .f32) (x1 : Vec Ideal S512x16 .f32) (j : S2000x16.Idx) :
    k0_pay1 x0 x1 j = ∑ k : Fin 512, x0 (ix2 (j 0) k) * x1 (ix2 k (j 1)) := by
  obtain ⟨p, q, rfl⟩ : ∃ (p : Fin 2000) (q : Fin 16), j = ix2 p q := ⟨j 0, j 1, eq_ix2 j⟩
  exact mmPay0_apply x0 x1 p q

/-- The whole-array function: the product of the table with the weight matrix. -/
abbrev prod0 (a0 : S100000x512.Idx → Elt Ideal .f32) (a1 : S512x16.Idx → Elt Ideal .f32) : S100000x16.Idx → Elt Ideal .f32 :=
  fun i => ∑ k : Fin 512, a0 (ix2 (i 0) k) * a1 (ix2 k (i 1))

/-- A sum of products of reads is the product at an index once the reads are where that index says. -/
theorem prod0_of_reads (a0 : S100000x512.Idx → Elt Ideal .f32) (a1 : S512x16.Idx → Elt Ideal .f32) (i2 : S100000x16.Idx)
    (f0 : Fin 512 → S100000x512.Idx) (f1 : Fin 512 → S512x16.Idx)
    (h0 : ∀ k, f0 k = ix2 (i2 0) k) (h1 : ∀ k, f1 k = ix2 k (i2 1)) :
    ∑ k : Fin 512, a0 (f0 k) * a1 (f1 k) = prod0 a0 a1 i2 :=
  Finset.sum_congr rfl fun k _ => by rw [h0 k, h1 k] <;> rfl

/-- The program's index maps over the grid: the left operand's row block moves with the output's, the output's row block
    at point t is t, the weight matrix is one block, every other block index is 0. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the product. -/
theorem flushed0_eq (c : Dev nD) (t : Fin cfg0.N) :
    (dat0 V c).flushed 2 t = ((cfg0.win 2).blk t).view.read (Elt Ideal) (prod0 (V c main_arg0) (V c main_arg2)) := by
  show (cfg0.win 2).cut (grid0.coords t) ((dat0 V c).after 2 t) = _
  rw [after0_2]
  unfold out0_2
  rw [View.canon_unit_zero hz0]
  simp only [View.ld_unit_zero (S := S2000x512) hz0, View.ld_unit_zero (S := S512x16) hz0]
  obtain ⟨e0, e1, e2, e3, e4, e5⟩ := idx_facts0 t
  funext j
  refine (mmPay0_at _ _ j).trans ?_
  have h0 : ∀ k : Fin 512, ((cfg0.win 0).blk t).view.emb (ix2 (j 0) k) = ix2 ((((cfg0.win 2).blk t).view.emb j) 0) k := fun k => by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  have h1 : ∀ k : Fin 512, ((cfg0.win 1).blk t).view.emb (ix2 k (j 1)) = ix2 k ((((cfg0.win 2).blk t).view.emb j) 1) := fun k => by
    funext a; apply Fin.ext
    match a with
    | ⟨0, _⟩ => show win0_1.index t (0 : Fin 2) * 512 + 1 * k.val = k.val; omega
    | ⟨1, _⟩ => show win0_1.index t (1 : Fin 2) * 16 + 1 * (j 1).val = win0_2.index t (1 : Fin 2) * 16 + 1 * (j 1).val; omega
  exact prod0_of_reads (V c main_arg0) (V c main_arg2) _
    (fun k => ((cfg0.win 0).blk t).view.emb (ix2 (j 0) k)) (fun k => ((cfg0.win 1).blk t).view.emb (ix2 k (j 1))) h0 h1

/-- An index of the output array is in point t's block iff each coordinate is in the block's range on its axis. -/
theorem mem_blk0 (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v4).slice (win0_2.rect t)).set ↔ _
  rw [View.set_slice_whole, Rect.mem_set_unit]
  exact Iff.rfl

/-- Every index of the output array is in some point's block: row r is in block r / 2000. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 50 := rfl
  let t : Fin cfg0.N := ⟨(i 0).val / 2000, by rw [hN]; omega⟩
  obtain ⟨e0, e1, e2, e3, e4, e5⟩ := idx_facts0 t
  have e4' : win0_2.index t (0 : Fin 2) = (i 0).val / 2000 := e4
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 16 ≤ (i 1).val ∧ (i 1).val < win0_2.index t (1 : Fin 2) * 16 + 16; omega

/-- The output array when the region ends: the table as the region finds it times the weight matrix. -/
theorem final0 (c : Dev nD) :
    (dat0 V c).arrAt 2 cfg0.N = prod0 (V c main_arg0) (V c main_arg2) :=
  (dat0 V c).arrAt_eq_of_cover 2 (prod0 (V c main_arg0) (V c main_arg2)) (fun t _ => flushed0_eq V c t) (cover0)

/-! ## Region 2: the matrix product  out[r, l] = ∑ₖ a[r, k] * w[k, l] -/

theorem lhs2_0 (i : S10000x16.Idx) (q : dot_S10000x16_S16x16_S10000x16_1_0_0_1_n_n.contr.Idx) :
    (dot_S10000x16_S16x16_S10000x16_1_0_0_1_n_n.lhsIdx i q 0).val = (i 0).val := by
  unfold DotDims.lhsIdx
  rw [dif_neg (show ¬(0 : Fin S10000x16.rank) ∈ dot_S10000x16_S16x16_S10000x16_1_0_0_1_n_n.lhsBatch by decide), dif_pos (show (0 : Fin S10000x16.rank) ∈ dot_S10000x16_S16x16_S10000x16_1_0_0_1_n_n.lhsNonContracting by decide)]
  rfl
theorem lhs2_1 (i : S10000x16.Idx) (q : dot_S10000x16_S16x16_S10000x16_1_0_0_1_n_n.contr.Idx) :
    (dot_S10000x16_S16x16_S10000x16_1_0_0_1_n_n.lhsIdx i q 1).val = (q ⟨0, by decide⟩).val :=
  dot_S10000x16_S16x16_S10000x16_1_0_0_1_n_n.lhsIdx_val_of_single rfl i q
theorem rhs2_0 (i : S10000x16.Idx) (q : dot_S10000x16_S16x16_S10000x16_1_0_0_1_n_n.contr.Idx) :
    (dot_S10000x16_S16x16_S10000x16_1_0_0_1_n_n.rhsIdx i q 0).val = (q ⟨0, by decide⟩).val :=
  dot_S10000x16_S16x16_S10000x16_1_0_0_1_n_n.rhsIdx_val_of_single rfl i q
theorem rhs2_1 (i : S10000x16.Idx) (q : dot_S10000x16_S16x16_S10000x16_1_0_0_1_n_n.contr.Idx) :
    (dot_S10000x16_S16x16_S10000x16_1_0_0_1_n_n.rhsIdx i q 1).val = (i 1).val := by
  unfold DotDims.rhsIdx
  rw [dif_neg (show ¬(1 : Fin S16x16.rank) ∈ dot_S10000x16_S16x16_S10000x16_1_0_0_1_n_n.rhsBatch by decide), dif_pos (show (1 : Fin S16x16.rank) ∈ dot_S10000x16_S16x16_S10000x16_1_0_0_1_n_n.rhsNonContracting by decide)]
  rfl

/-- The matrix unit's product at an index: row p of the left block against column q of the right one. -/
theorem matmul2_apply (y0 : FVec Ideal S10000x16 .bf16) (y1 : FVec Ideal S16x16 .bf16) (p : Fin 10000) (q : Fin 16) :
    FloatOps.matmul dot_S10000x16_S16x16_S10000x16_1_0_0_1_n_n none y0 y1 (constant (F := Ideal) S10000x16 .f32 0x00000000#32) (ix2 p q)
      = ∑ k : Fin 16, y0 (ix2 p k) * y1 (ix2 k q) := by
  rw [Ideal.matmul_constant_zero_apply, ← Equiv.sum_comp (contrEquiv1 dot_S10000x16_S16x16_S10000x16_1_0_0_1_n_n 16 rfl rfl).symm]
  refine Finset.sum_congr rfl fun k _ => ?_
  have hk := contrEquiv1_symm_val dot_S10000x16_S16x16_S10000x16_1_0_0_1_n_n 16 rfl rfl k
  have el : dot_S10000x16_S16x16_S10000x16_1_0_0_1_n_n.lhsIdx (ix2 p q) ((contrEquiv1 dot_S10000x16_S16x16_S10000x16_1_0_0_1_n_n 16 rfl rfl).symm k) = ix2 p k := funext fun a => Fin.ext (by
    match a with
    | ⟨0, _⟩ => exact lhs2_0 _ _
    | ⟨1, _⟩ => exact (lhs2_1 _ _).trans hk)
  have er : dot_S10000x16_S16x16_S10000x16_1_0_0_1_n_n.rhsIdx (ix2 p q) ((contrEquiv1 dot_S10000x16_S16x16_S10000x16_1_0_0_1_n_n 16 rfl rfl).symm k) = ix2 k q := funext fun a => Fin.ext (by
    match a with
    | ⟨0, _⟩ => exact (rhs2_0 _ _).trans hk
    | ⟨1, _⟩ => exact rhs2_1 _ _)
  rw [el, er]

/-- The payload at an index: the casts to the matrix unit's input format are the identity in exact arithmetic, so
    entry (p, q) is row p of the left block against column q of the right block. -/
theorem mmPay2_apply (x0 : Vec Ideal S10000x16 .f32) (x1 : Vec Ideal S16x16 .f32) (p : Fin 10000) (q : Fin 16) :
    k2_pay1 x0 x1 (ix2 p q) = ∑ k : Fin 16, x0 (ix2 p k) * x1 (ix2 k q) := by
  unfold k2_pay1
  rw [shapeCast_self]
  exact matmul2_apply (truncf .bf16 x0 bitsLt_bf16_f32) (truncf .bf16 x1 bitsLt_bf16_f32) p q

theorem mmPay2_at (x0 : Vec Ideal S10000x16 .f32) (x1 : Vec Ideal S16x16 .f32) (j : S10000x16.Idx) :
    k2_pay1 x0 x1 j = ∑ k : Fin 16, x0 (ix2 (j 0) k) * x1 (ix2 k (j 1)) := by
  obtain ⟨p, q, rfl⟩ : ∃ (p : Fin 10000) (q : Fin 16), j = ix2 p q := ⟨j 0, j 1, eq_ix2 j⟩
  exact mmPay2_apply x0 x1 p q

/-- The whole-array function: the product of the table with the weight matrix. -/
abbrev prod2 (a0 : S100000x16.Idx → Elt Ideal .f32) (a1 : S16x16.Idx → Elt Ideal .f32) : S100000x16.Idx → Elt Ideal .f32 :=
  fun i => ∑ k : Fin 16, a0 (ix2 (i 0) k) * a1 (ix2 k (i 1))

/-- A sum of products of reads is the product at an index once the reads are where that index says. -/
theorem prod2_of_reads (a0 : S100000x16.Idx → Elt Ideal .f32) (a1 : S16x16.Idx → Elt Ideal .f32) (i2 : S100000x16.Idx)
    (f0 : Fin 16 → S100000x16.Idx) (f1 : Fin 16 → S16x16.Idx)
    (h0 : ∀ k, f0 k = ix2 (i2 0) k) (h1 : ∀ k, f1 k = ix2 k (i2 1)) :
    ∑ k : Fin 16, a0 (f0 k) * a1 (f1 k) = prod2 a0 a1 i2 :=
  Finset.sum_congr rfl fun k _ => by rw [h0 k, h1 k] <;> rfl

/-- The program's index maps over the grid: the left operand's row block moves with the output's, the output's row block
    at point t is t, the weight matrix is one block, every other block index is 0. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point t writes back is block t of the product. -/
theorem flushed2_eq (c : Dev nD) (t : Fin cfg2.N) :
    (dat2 V c).flushed 2 t = ((cfg2.win 2).blk t).view.read (Elt Ideal) (prod2 (V c main_v46) (V c main_arg3)) := by
  show (cfg2.win 2).cut (grid2.coords t) ((dat2 V c).after 2 t) = _
  rw [after2_2]
  unfold out2_2
  rw [View.canon_unit_zero hz0]
  simp only [View.ld_unit_zero (S := S10000x16) hz0, View.ld_unit_zero (S := S16x16) hz0]
  obtain ⟨e0, e1, e2, e3, e4, e5⟩ := idx_facts2 t
  funext j
  refine (mmPay2_at _ _ j).trans ?_
  have h0 : ∀ k : Fin 16, ((cfg2.win 0).blk t).view.emb (ix2 (j 0) k) = ix2 ((((cfg2.win 2).blk t).view.emb j) 0) k := fun k => by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 16 + 1 * k.val = k.val; omega
  have h1 : ∀ k : Fin 16, ((cfg2.win 1).blk t).view.emb (ix2 k (j 1)) = ix2 k ((((cfg2.win 2).blk t).view.emb j) 1) := fun k => by
    funext a; apply Fin.ext
    match a with
    | ⟨0, _⟩ => show win2_1.index t (0 : Fin 2) * 16 + 1 * k.val = k.val; omega
    | ⟨1, _⟩ => show win2_1.index t (1 : Fin 2) * 16 + 1 * (j 1).val = win2_2.index t (1 : Fin 2) * 16 + 1 * (j 1).val; omega
  exact prod2_of_reads (V c main_v46) (V c main_arg3) _
    (fun k => ((cfg2.win 0).blk t).view.emb (ix2 (j 0) k)) (fun k => ((cfg2.win 1).blk t).view.emb (ix2 k (j 1))) h0 h1

/-- An index of the output array is in point t's block iff each coordinate is in the block's range on its axis. -/
theorem mem_blk2 (t : Fin cfg2.N) (i : S100000x16.Idx) :
    i ∈ ((cfg2.win 2).blk t).view.set ↔ ∀ a : Fin 2, win2_2.index t a * S10000x16.size a ≤ (i a).val ∧ (i a).val < win2_2.index t a * S10000x16.size a + S10000x16.size a := by
  show i ∈ ((View.whole main_v47).slice (win2_2.rect t)).set ↔ _
  rw [View.set_slice_whole, Rect.mem_set_unit]
  exact Iff.rfl

/-- Every index of the output array is in some point's block: row r is in block r / 10000. -/
theorem cover2 (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  have hN : cfg2.N = 10 := rfl
  let t : Fin cfg2.N := ⟨(i 0).val / 10000, by rw [hN]; omega⟩
  obtain ⟨e0, e1, e2, e3, e4, e5⟩ := idx_facts2 t
  have e4' : win2_2.index t (0 : Fin 2) = (i 0).val / 10000 := e4
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 16 ≤ (i 1).val ∧ (i 1).val < win2_2.index t (1 : Fin 2) * 16 + 16; omega

/-- The output array when the region ends: the table as the region finds it times the weight matrix. -/
theorem final2 (c : Dev nD) :
    (dat2 V c).arrAt 2 cfg2.N = prod2 (V c main_v46) (V c main_arg3) :=
  (dat2 V c).arrAt_eq_of_cover 2 (prod2 (V c main_v46) (V c main_arg3)) (fun t _ => flushed2_eq V c t) (cover2)

end Cert.KernelIdeal.RegionValue
end
-- ==== Proof.RefTerm.lean ====
/-
  The reference program's result as a term of its argument arrays, in named stages.

  The reference appends the 100000 loop edges `k → k` (an iota) to the 3200000 edges of the edge array, and then treats
  all 3300000 alike: the degree of a node is the number of edges accumulated at it (`degAll`), its factor the inverse
  square root of the degree where positive (`disAll`), an edge's coefficient the product of the factors looked up at its
  two ends (`coefAll`), and one round (`convAll`) accumulates at each edge's target the source's row times the edge's
  coefficient. The result is a round on `x0 · x2`, the product with `x3`, and a second round.
-/
import proofs.«108763_j6004364280103_2_alg».proof.Proof.Gen.ReferenceIdeal

noncomputable section

namespace Cert.ReferenceIdeal.RefTerm

open Cert.ReferenceIdeal Cert.ReferenceIdeal.Gen Idealize.ShloMosaic Idealize.ShloMosaic.TcCoe Idealize.SL.Sem Idealize.ShloMosaic.StableHlo

variable {F : FTy → Type} [FloatOps F]

/-- The source words of all 3300000 edges: row 0 of the edge array, then the loop edges' `0, 1, …, 99999`. -/
def srcAll (x1 : IVec S2x3200000 32) : IVec S3300000 32 :=
  concatenate S3300000 0 [⟨S3200000, (shapeCast _ (extractStridedSlice S1x3200000 ![0, 0] x1 slices_S2x3200000_S1x3200000_0_0) shapeCasts_S1x3200000_S3200000)⟩, ⟨S100000, (iotaInDim S100000 32 0)⟩] concatenates_S3200000_S100000_S3300000_d0

/-- The target words of all 3300000 edges: row 1 of the edge array, then the loop edges' `0, 1, …, 99999`. -/
def dstAll (x1 : IVec S2x3200000 32) : IVec S3300000 32 :=
  concatenate S3300000 0 [⟨S3200000, (shapeCast _ (extractStridedSlice S1x3200000 ![1, 0] x1 slices_S2x3200000_S1x3200000_1_0) shapeCasts_S1x3200000_S3200000)⟩, ⟨S100000, (iotaInDim S100000 32 0)⟩] concatenates_S3200000_S100000_S3300000_d0

/-- A node's degree: a one accumulated at the target of every edge, from zero. -/
def degAll (x1 : IVec S2x3200000 32) : FVec F S100000 .f32 :=
  Host.scatterAdd scatter_S100000_S3300000x1_S3300000_n_0_0_1 (broadcastInDim S100000 ![] bcast_S_S100000 (constant S_ .f32 0x00000000#32)) (broadcastInDim S3300000x1 ![0] bcast_S3300000_S3300000x1_0 (dstAll x1)) (broadcastInDim S3300000 ![] bcast_S_S3300000 (constant S_ .f32 0x3F800000#32))

/-- A node's factor: the inverse square root of its degree where that is positive, zero elsewhere. -/
def disAll (x1 : IVec S2x3200000 32) : FVec F S100000 .f32 :=
  select (cmpf .ogt (degAll (F := F) x1) (broadcastInDim S100000 ![] bcast_S_S100000 (constant S_ .f32 0x00000000#32))) (Host.rsqrt (degAll (F := F) x1)) (broadcastInDim S100000 ![] bcast_S_S100000 (id (constant S_ .f32 0x00000000#32)))

/-- A look-up moves the negative words up by the number of rows. -/
def wrapAll (v : IVec S3300000 32) : IVec S3300000 32 :=
  select (cmpi .slt v (broadcastInDim S3300000 ![] bcast_S_S3300000 (constantI S_ 32 0#32))) (addi v (broadcastInDim S3300000 ![] bcast_S_S3300000 (constantI S_ 32 100000#32))) v

/-- An edge's coefficient: the factor looked up at its source times the factor looked up at its target. -/
def coefAll (x1 : IVec S2x3200000 32) : FVec F S3300000 .f32 :=
  mulf (Host.gather gather_S100000_S3300000x1_S3300000_n_0_n_n_0_1_1 (disAll (F := F) x1) (broadcastInDim S3300000x1 ![0] bcast_S3300000_S3300000x1_0 (wrapAll (srcAll x1)))) (Host.gather gather_S100000_S3300000x1_S3300000_n_0_n_n_0_1_1 (disAll (F := F) x1) (broadcastInDim S3300000x1 ![0] bcast_S3300000_S3300000x1_0 (wrapAll (dstAll x1))))

/-- One round: at each edge's target, the coefficient times the row looked up at the edge's source, accumulated from zero. -/
def convAll (x1 : IVec S2x3200000 32) (h : FVec F S100000x16 .f32) : FVec F S100000x16 .f32 :=
  Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 (dstAll x1)) (mulf (broadcastInDim S3300000x16 ![0, 1] bcast_S3300000x1_S3300000x16_0_1 (broadcastInDim S3300000x1 ![0] bcast_S3300000_S3300000x1_0 (coefAll (F := F) x1))) (Host.gather gather_S100000x16_S3300000x1_S3300000x16_1_0_n_n_0_1_116 h (broadcastInDim S3300000x1 ![0] bcast_S3300000_S3300000x1_0 (wrapAll (srcAll x1)))))

/-- The reference's result: a round on `x0 · x2`, the product with `x3`, a second round. -/
def refOut (x0 : FVec F S100000x512 .f32) (x1 : IVec S2x3200000 32) (x2 : FVec F S512x16 .f32) (x3 : FVec F S16x16 .f32) : FVec F S100000x16 .f32 :=
  convAll x1 (Host.dotGeneral dot_S100000x16_S16x16_S100000x16_1_0_0_1_n_n none (convAll x1 (Host.dotGeneral dot_S100000x512_S512x16_S100000x16_1_0_0_1_n_n none x0 x2)) x3)

end Cert.ReferenceIdeal.RefTerm

end
-- ==== Proof.RefRun.lean ====
/-
  The reference program's run, read back as a pure term of its argument arrays.

  The program's entry function is a straight line of 114 host operations, each writing one buffer of its own from buffers
  written before it (the two calls of the outlined "where" stand as their three operations each, in the call's place).
  Listed in program order, the entry function IS the sequential composition of that list. Every weakly fair execution
  from any memory with zero counters therefore terminates with each buffer at its operation's function of the operands'
  final contents, and the four argument arrays untouched. Composing the operations backwards from the result buffer
  gives the result as a term of the arguments: the second accumulation round over all 3300000 edges (the 3200000 given
  ones and the 100000 loops), applied to the product with the second weight matrix of the first round on the product
  with the first. The second round's edge words, degrees, factors and coefficients are written to buffers of their own,
  but as terms of the edge array they are the first round's, so the composed term is the staged term `RefTerm.refOut`.
-/
import proofs.«108763_j6004364280103_2_alg».proof.Proof.Gen.ReferenceIdeal
import Idealize.ShloMosaic.Lib.StableHlo.Run
import proofs.«108763_j6004364280103_2_alg».proof.Proof.RefTerm

noncomputable section

open scoped BigOperators

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's 114 operations, in program order (an outlined function's operations stand in its call's place,
    over the call's own buffers). -/
abbrev ops : List (HloOp τ sig (Elt F)) :=
  [ binary main_arg0 main_arg2 main_v0 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    unary main_arg1 main_v3 ((extractStridedSlice S1x3200000 ![1, 0] · slices_S2x3200000_S1x3200000_1_0) : (⟨S2x3200000, .i32⟩ : BufTy).Contents (Elt F) → (⟨S1x3200000, .i32⟩ : BufTy).Contents (Elt F)),
    reshape main_v3 main_v4 rfl shapeCasts_S1x3200000_S3200000,
    nullary main_v5 (iotaInDim S100000 32 0),
    binary main_v2 main_v5 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v4 main_v5 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v6 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v6 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v6 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v7 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v7 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)),
    unary main_v30 main_v31 (broadcastInDim S3300000x1 ![0] bcast_S3300000_S3300000x1_0 : (⟨S3300000, .f32⟩ : BufTy).Contents (Elt F) → (⟨S3300000x1, .f32⟩ : BufTy).Contents (Elt F)),
    nullary main_c_6 (constantI S_ 32 0#32),
    unary main_c_6 main_v32 (broadcastInDim S3300000 ![] bcast_S_S3300000 : (⟨S_, .i32⟩ : BufTy).Contents (Elt F) → (⟨S3300000, .i32⟩ : BufTy).Contents (Elt F)),
    binary main_v6 main_v32 main_v33 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v34 (broadcastInDim S3300000 ![] bcast_S_S3300000 : (⟨S_, .i32⟩ : BufTy).Contents (Elt F) → (⟨S3300000, .i32⟩ : BufTy).Contents (Elt F)),
    binary main_v6 main_v34 main_v35 (addi : (⟨S3300000, .i32⟩ : BufTy).Contents (Elt F) → (⟨S3300000, .i32⟩ : BufTy).Contents (Elt F) → (⟨S3300000, .i32⟩ : BufTy).Contents (Elt F)),
    ternary main_v33 main_v35 main_v6 main_v36 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v36 main_v37 (broadcastInDim S3300000x1 ![0] bcast_S3300000_S3300000x1_0 : (⟨S3300000, .i32⟩ : BufTy).Contents (Elt F) → (⟨S3300000x1, .i32⟩ : BufTy).Contents (Elt F)),
    binary main_v0 main_v37 main_v38 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v31 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v39 main_v38 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v7 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    binary main_v43 main_arg3 main_v44 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    unary main_arg1 main_v45 ((extractStridedSlice S1x3200000 ![0, 0] · slices_S2x3200000_S1x3200000_0_0) : (⟨S2x3200000, .i32⟩ : BufTy).Contents (Elt F) → (⟨S1x3200000, .i32⟩ : BufTy).Contents (Elt F)),
    reshape main_v45 main_v46 rfl shapeCasts_S1x3200000_S3200000,
    unary main_arg1 main_v47 ((extractStridedSlice S1x3200000 ![1, 0] · slices_S2x3200000_S1x3200000_1_0) : (⟨S2x3200000, .i32⟩ : BufTy).Contents (Elt F) → (⟨S1x3200000, .i32⟩ : BufTy).Contents (Elt F)),
    reshape main_v47 main_v48 rfl shapeCasts_S1x3200000_S3200000,
    nullary main_v49 (iotaInDim S100000 32 0),
    binary main_v46 main_v49 main_v50 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v48 main_v49 main_v51 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_9 (constant S_ .f32 0x3F800000#32),
    unary main_cst_9 main_v52 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    unary main_v51 main_v54 (broadcastInDim S3300000x1 ![0] bcast_S3300000_S3300000x1_0 : (⟨S3300000, .i32⟩ : BufTy).Contents (Elt F) → (⟨S3300000x1, .i32⟩ : BufTy).Contents (Elt F)),
    ternary main_v53 main_v54 main_v52 main_v55 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v56 (broadcastInDim S100000 ![] bcast_S_S100000 : (⟨S_, .f32⟩ : BufTy).Contents (Elt F) → (⟨S100000, .f32⟩ : BufTy).Contents (Elt F)),
    binary main_v55 main_v56 main_v57 (cmpf .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v57) (TRef.of (T := ⟨S100000, .f32⟩) main_v58) (TRef.of (T := ⟨S100000, .f32⟩) main_call1_v1) (TRef.of (T := ⟨S100000, .f32⟩) main_v59) select,
    nullary main_c_13 (constantI S_ 32 0#32),
    unary main_c_13 main_v60 (broadcastInDim S3300000 ![] bcast_S_S3300000 : (⟨S_, .i32⟩ : BufTy).Contents (Elt F) → (⟨S3300000, .i32⟩ : BufTy).Contents (Elt F)),
    binary main_v50 main_v60 main_v61 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v62 (broadcastInDim S3300000 ![] bcast_S_S3300000 : (⟨S_, .i32⟩ : BufTy).Contents (Elt F) → (⟨S3300000, .i32⟩ : BufTy).Contents (Elt F)),
    binary main_v50 main_v62 main_v63 (addi : (⟨S3300000, .i32⟩ : BufTy).Contents (Elt F) → (⟨S3300000, .i32⟩ : BufTy).Contents (Elt F) → (⟨S3300000, .i32⟩ : BufTy).Contents (Elt F)),
    ternary main_v61 main_v63 main_v50 main_v64 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v64 main_v65 (broadcastInDim S3300000x1 ![0] bcast_S3300000_S3300000x1_0 : (⟨S3300000, .i32⟩ : BufTy).Contents (Elt F) → (⟨S3300000x1, .i32⟩ : BufTy).Contents (Elt F)),
    binary main_v59 main_v65 main_v66 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v67 (broadcastInDim S3300000 ![] bcast_S_S3300000 : (⟨S_, .i32⟩ : BufTy).Contents (Elt F) → (⟨S3300000, .i32⟩ : BufTy).Contents (Elt F)),
    binary main_v51 main_v67 main_v68 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v69 (broadcastInDim S3300000 ![] bcast_S_S3300000 : (⟨S_, .i32⟩ : BufTy).Contents (Elt F) → (⟨S3300000, .i32⟩ : BufTy).Contents (Elt F)),
    binary main_v51 main_v69 main_v70 (addi : (⟨S3300000, .i32⟩ : BufTy).Contents (Elt F) → (⟨S3300000, .i32⟩ : BufTy).Contents (Elt F) → (⟨S3300000, .i32⟩ : BufTy).Contents (Elt F)),
    ternary main_v68 main_v70 main_v51 main_v71 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v71 main_v72 (broadcastInDim S3300000x1 ![0] bcast_S3300000_S3300000x1_0 : (⟨S3300000, .i32⟩ : BufTy).Contents (Elt F) → (⟨S3300000x1, .i32⟩ : BufTy).Contents (Elt F)),
    binary main_v59 main_v72 main_v73 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v66 main_v73 main_v74 (mulf : (⟨S3300000, .f32⟩ : BufTy).Contents (Elt F) → (⟨S3300000, .f32⟩ : BufTy).Contents (Elt F) → (⟨S3300000, .f32⟩ : BufTy).Contents (Elt F)),
    unary main_v74 main_v75 (broadcastInDim S3300000x1 ![0] bcast_S3300000_S3300000x1_0 : (⟨S3300000, .f32⟩ : BufTy).Contents (Elt F) → (⟨S3300000x1, .f32⟩ : BufTy).Contents (Elt F)),
    nullary main_c_17 (constantI S_ 32 0#32),
    unary main_c_17 main_v76 (broadcastInDim S3300000 ![] bcast_S_S3300000 : (⟨S_, .i32⟩ : BufTy).Contents (Elt F) → (⟨S3300000, .i32⟩ : BufTy).Contents (Elt F)),
    binary main_v50 main_v76 main_v77 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v78 (broadcastInDim S3300000 ![] bcast_S_S3300000 : (⟨S_, .i32⟩ : BufTy).Contents (Elt F) → (⟨S3300000, .i32⟩ : BufTy).Contents (Elt F)),
    binary main_v50 main_v78 main_v79 (addi : (⟨S3300000, .i32⟩ : BufTy).Contents (Elt F) → (⟨S3300000, .i32⟩ : BufTy).Contents (Elt F) → (⟨S3300000, .i32⟩ : BufTy).Contents (Elt F)),
    ternary main_v77 main_v79 main_v50 main_v80 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v80 main_v81 (broadcastInDim S3300000x1 ![0] bcast_S3300000_S3300000x1_0 : (⟨S3300000, .i32⟩ : BufTy).Contents (Elt F) → (⟨S3300000x1, .i32⟩ : BufTy).Contents (Elt F)),
    binary main_v44 main_v81 main_v82 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v75 main_v83 (broadcastInDim S3300000x16 ![0, 1] bcast_S3300000x1_S3300000x16_0_1 : (⟨S3300000x1, .f32⟩ : BufTy).Contents (Elt F) → (⟨S3300000x16, .f32⟩ : BufTy).Contents (Elt F)),
    binary main_v83 main_v82 main_v84 (mulf : (⟨S3300000x16, .f32⟩ : BufTy).Contents (Elt F) → (⟨S3300000x16, .f32⟩ : BufTy).Contents (Elt F) → (⟨S3300000x16, .f32⟩ : BufTy).Contents (Elt F)),
    nullary main_cst_19 (constant S_ .f32 0x00000000#32),
    unary main_cst_19 main_v85 (broadcastInDim S100000x16 ![] bcast_S_S100000x16 : (⟨S_, .f32⟩ : BufTy).Contents (Elt F) → (⟨S100000x16, .f32⟩ : BufTy).Contents (Elt F)),
    unary main_v51 main_v86 (broadcastInDim S3300000x1 ![0] bcast_S3300000_S3300000x1_0 : (⟨S3300000, .i32⟩ : BufTy).Contents (Elt F) → (⟨S3300000x1, .i32⟩ : BufTy).Contents (Elt F)),
    ternary main_v85 main_v86 main_v84 main_v87 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]

set_option maxRecDepth 8192 in
set_option maxHeartbeats 4000000 in
/-- The entry function is the sequential composition of its operations. -/
theorem main_eq (c : Dev nD) : main (F := F) c = seq ops := rfl

/-- No buffer of the program is scoped to a region. -/
theorem scopedRefs_eq : (Finset.univ.filter fun b : Ref sig .tc => b.isScoped) = ∅ := by decide

/-- No semaphore of the program is scoped to a region. -/
theorem scopedSems_eq : (Finset.univ.filter fun sm : SemLoc sig => sm.isScoped .tc) = ∅ := by decide

set_option maxRecDepth 8192 in
/-- Every operation touches buffers of the host's thread only. -/
theorem ops_sub : (ops : List (HloOp τ sig (Elt F))).Forall fun op => op.bufs ⊆ tcRefs τ sig :=
  ⟨binary_bufs_sub .., unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩

set_option maxRecDepth 8192 in
set_option maxHeartbeats 45600000 in
/-- On every device, for any float values, from any memory with zero counters: every weakly fair execution of the entry
    function terminates with the result buffer at the staged term of the four argument arrays' initial contents, and the
    argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87) = RefTerm.refOut (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v87).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RefRun

end
-- ==== Proof.RefLayout.lean ====
/-
  The reference's 3300000 edges, one at a time: which word each of them carries, and the layout operations between the stages
  read at an index.

  The first 3200000 edges are the edge array's (row 0 the source words, row 1 the target words); the last 100000 are the loop
  edges, edge `3200000 + i` carrying the word `i` at both ends. A sum over all 3300000 is the sum over the first 3200000 plus
  the sum over the last 100000. A vector stood up as a column, a column spread over 16 columns and a scalar spread over a whole
  array read, at an index, the entry one expects.
-/
import proofs.«108763_j6004364280103_2_alg».proof.Proof.RefTerm
import proofs.«108763_j6004364280103_2_alg».proof.Proof.GcnSpec
import Idealize.ShloMosaic.Lib.Pipeline.Value
import Idealize.ShloMosaic.Lib.ValueIdx

noncomputable section

open scoped BigOperators

namespace Cert.ReferenceIdeal.RefLayout

open Cert.ReferenceIdeal Cert.ReferenceIdeal.Gen Cert.ReferenceIdeal.RefTerm Idealize.ShloMosaic Idealize.ShloMosaic.ValueIdx

/-! ## The two ranges of edges -/

/-- Edge `e` of the edge array, among all 3300000. -/
def inl (e : Fin 3200000) : Fin 3300000 := ⟨e.val, by omega⟩
/-- The loop edge of node `i`, among all 3300000. -/
def inr (i : Fin 100000) : Fin 3300000 := ⟨3200000 + i.val, by omega⟩

/-- A sum over all edges is the sum over the edge array's plus the sum over the loop edges. -/
theorem sum_edges {M : Type} [AddCommMonoid M] (g : Fin 3300000 → M) :
    ∑ n, g n = ∑ e : Fin 3200000, g (inl e) + ∑ i : Fin 100000, g (inr i) :=
  Fin.sum_univ_add (a := 3200000) (b := 100000) g

/-- The same for a sum over the edges that satisfy a condition. -/
theorem sum_filter_edges {M : Type} [AddCommMonoid M] (P : Fin 3300000 → Prop) [DecidablePred P] (g : Fin 3300000 → M) :
    ∑ n ∈ Finset.univ.filter P, g n
      = ∑ e ∈ Finset.univ.filter (fun e : Fin 3200000 => P (inl e)), g (inl e)
        + ∑ i ∈ Finset.univ.filter (fun i : Fin 100000 => P (inr i)), g (inr i) := by
  rw [Finset.sum_filter, Finset.sum_filter, Finset.sum_filter, sum_edges]

/-! ## The words -/

theorem srcAll_inl (x1 : IVec S2x3200000 32) (e : Fin 3200000) : srcAll x1 (ix1 (inl e)) = Cert.Gcn.srcW x1 e := by
  unfold srcAll
  rw [concatenate_pair_apply_left (0 : Fin S3300000.rank) _ _ concatenates_S3200000_S100000_S3300000_d0 (ix1 (inl e)) rfl (ix1 e)
    (fun b => match b with | ⟨0, _⟩ => rfl)]
  rw [shapeCast_apply _ shapeCasts_S1x3200000_S3200000 (ix1 e) (ix2 (0 : Fin 1) e)
    (by rw [Shape.rowMajor_val_two, Shape.rowMajor_val_one]; show 0 * 3200000 + e.val = e.val; omega)]
  exact extractStridedSlice_apply ![0, 0] x1 slices_S2x3200000_S1x3200000_0_0 (ix2 (0 : Fin 1) e) (ix2 (0 : Fin 2) e)
    (fun a => match a with
      | ⟨0, _⟩ => by show (0 : Nat) = 0 + 0; rfl
      | ⟨1, _⟩ => by show e.val = 0 + e.val; omega)

theorem dstAll_inl (x1 : IVec S2x3200000 32) (e : Fin 3200000) : dstAll x1 (ix1 (inl e)) = Cert.Gcn.dstW x1 e := by
  unfold dstAll
  rw [concatenate_pair_apply_left (0 : Fin S3300000.rank) _ _ concatenates_S3200000_S100000_S3300000_d0 (ix1 (inl e)) rfl (ix1 e)
    (fun b => match b with | ⟨0, _⟩ => rfl)]
  rw [shapeCast_apply _ shapeCasts_S1x3200000_S3200000 (ix1 e) (ix2 (0 : Fin 1) e)
    (by rw [Shape.rowMajor_val_two, Shape.rowMajor_val_one]; show 0 * 3200000 + e.val = e.val; omega)]
  exact extractStridedSlice_apply ![1, 0] x1 slices_S2x3200000_S1x3200000_1_0 (ix2 (0 : Fin 1) e) (ix2 (1 : Fin 2) e)
    (fun a => match a with
      | ⟨0, _⟩ => by show (1 : Nat) = 1 + 0; rfl
      | ⟨1, _⟩ => by show e.val = 0 + e.val; omega)

theorem srcAll_inr (x1 : IVec S2x3200000 32) (i : Fin 100000) : srcAll x1 (ix1 (inr i)) = BitVec.ofNat 32 i.val := by
  unfold srcAll
  rw [concatenate_pair_apply_right (0 : Fin S3300000.rank) _ _ concatenates_S3200000_S100000_S3300000_d0 (ix1 (inr i)) rfl rfl (ix1 i)
    (fun b hb => match b with | ⟨0, _⟩ => absurd rfl hb)
    (by show i.val + 3200000 = 3200000 + i.val; omega)]
  rfl

theorem dstAll_inr (x1 : IVec S2x3200000 32) (i : Fin 100000) : dstAll x1 (ix1 (inr i)) = BitVec.ofNat 32 i.val := by
  unfold dstAll
  rw [concatenate_pair_apply_right (0 : Fin S3300000.rank) _ _ concatenates_S3200000_S100000_S3300000_d0 (ix1 (inr i)) rfl rfl (ix1 i)
    (fun b hb => match b with | ⟨0, _⟩ => absurd rfl hb)
    (by show i.val + 3200000 = 3200000 + i.val; omega)]
  rfl

/-! ## The layout operations between the stages -/

variable {α : Type}

/-- A vector stood up as a column reads, at `(n, 0)`, its entry `n`. -/
theorem column_apply (v : S3300000.Idx → α) (n : Fin 3300000) (u : Fin 1) :
    broadcastInDim S3300000x1 ![0] bcast_S3300000_S3300000x1_0 v (ix2 n u) = v (ix1 n) :=
  broadcastInDim_apply _ bcast_S3300000_S3300000x1_0 v (ix2 n u) (ix1 n) (fun a => match a with
    | ⟨0, _⟩ => by show n.val = if (3300000 : Nat) = 1 then 0 else n.val; rw [if_neg (by decide)])

/-- A column spread over 16 columns reads, at `(n, f)`, the column's entry `n`. -/
theorem spread_apply (y : S3300000x1.Idx → α) (n : Fin 3300000) (f : Fin 16) :
    broadcastInDim S3300000x16 ![0, 1] bcast_S3300000x1_S3300000x16_0_1 y (ix2 n f) = y (ix2 n (0 : Fin 1)) :=
  broadcastInDim_apply _ bcast_S3300000x1_S3300000x16_0_1 y (ix2 n f) (ix2 n (0 : Fin 1)) (fun a => match a with
    | ⟨0, _⟩ => by show n.val = if (3300000 : Nat) = 1 then 0 else n.val; rw [if_neg (by decide)]
    | ⟨1, _⟩ => by show 0 = if (1 : Nat) = 1 then 0 else f.val; rw [if_pos rfl])

/-- A scalar spread over an array reads the scalar everywhere. -/
theorem fill_S100000_apply (c : S_.Idx → α) (i : S100000.Idx) :
    broadcastInDim S100000 ![] bcast_S_S100000 c i = c ix0 :=
  broadcastInDim_apply _ bcast_S_S100000 c i ix0 (fun a => a.elim0)

theorem fill_S3300000_apply (c : S_.Idx → α) (i : S3300000.Idx) :
    broadcastInDim S3300000 ![] bcast_S_S3300000 c i = c ix0 :=
  broadcastInDim_apply _ bcast_S_S3300000 c i ix0 (fun a => a.elim0)

theorem fill_S100000x16_apply (c : S_.Idx → α) (i : S100000x16.Idx) :
    broadcastInDim S100000x16 ![] bcast_S_S100000x16 c i = c ix0 :=
  broadcastInDim_apply _ bcast_S_S100000x16 c i ix0 (fun a => a.elim0)

/-! The same as equalities of whole arrays. -/

theorem column_eq (v : S3300000.Idx → α) :
    broadcastInDim S3300000x1 ![0] bcast_S3300000_S3300000x1_0 v = fun j => v (ix1 (j 0)) := by
  funext j
  rw [eq_ix2 j]
  exact column_apply v _ _

theorem spread_eq (y : S3300000x1.Idx → α) :
    broadcastInDim S3300000x16 ![0, 1] bcast_S3300000x1_S3300000x16_0_1 y = fun j => y (ix2 (j 0) (0 : Fin 1)) := by
  funext j
  rw [eq_ix2 j]
  exact spread_apply y _ _

theorem fill_S100000_eq (c : S_.Idx → α) : broadcastInDim S100000 ![] bcast_S_S100000 c = fun _ => c ix0 :=
  funext fun i => fill_S100000_apply c i

theorem fill_S3300000_eq (c : S_.Idx → α) : broadcastInDim S3300000 ![] bcast_S_S3300000 c = fun _ => c ix0 :=
  funext fun i => fill_S3300000_apply c i

theorem fill_S100000x16_eq (c : S_.Idx → α) : broadcastInDim S100000x16 ![] bcast_S_S100000x16 c = fun _ => c ix0 :=
  funext fun i => fill_S100000x16_apply c i

/-- The look-up's move of the negative words, word by word. -/
theorem wrapAll_apply (v : IVec S3300000 32) (i : S3300000.Idx) : wrapAll v i = Cert.Gcn.wrapW (v i) := by
  unfold wrapAll Cert.Gcn.wrapW
  rw [select_apply]
  show Scalar.select (IntOp.cmpi .slt (v i) (broadcastInDim S3300000 ![] bcast_S_S3300000 (constantI S_ 32 0#32) i))
      (IntOp.addi (v i) (broadcastInDim S3300000 ![] bcast_S_S3300000 (constantI S_ 32 100000#32) i)) (v i) = _
  rw [fill_S3300000_apply, fill_S3300000_apply]
  rfl

theorem wrapAll_eq (v : IVec S3300000 32) : wrapAll v = fun i => Cert.Gcn.wrapW (v i) :=
  funext fun i => wrapAll_apply v i

end Cert.ReferenceIdeal.RefLayout

end
-- ==== Proof.RefStages.lean ====
/-
  The reference's degree, factor and edge coefficient, entry by entry, at the extended reals.

  The loop edge of node `i` carries the word `i`, a nonnegative word below 2^31: read signed it is `i`, the look-up leaves it
  alone and clamps it to `i`. So among the loop edges exactly one, node `k`'s own, is accumulated at `k`, and the degree the
  reference accumulates — a one for every edge of the edge array aimed at `k`, then the loop's one — is the common function's
  `degree`, by the associativity of the sum alone. The factor and the coefficient follow entry by entry.
-/
import proofs.«108763_j6004364280103_2_alg».proof.Proof.RefLayout
import proofs.«108763_j6004364280103_2_alg».proof.Proof.LibFlatGather

noncomputable section

open scoped BigOperators

namespace Cert.ReferenceIdeal.RefStages

open Cert.ReferenceIdeal Cert.ReferenceIdeal.Gen Cert.ReferenceIdeal.RefTerm Cert.ReferenceIdeal.RefLayout
open Idealize.ShloMosaic Idealize.ShloMosaic.ValueIdx Cert.RowIndex Cert.Gcn

/-- Node `i`'s word, read signed, is `i`. -/
theorem loop_toInt (i : Fin 100000) : (BitVec.ofNat 32 i.val).toInt = (i.val : ℤ) := by
  have hi := i.isLt
  have hn : (BitVec.ofNat 32 i.val).toNat = i.val := by rw [BitVec.toNat_ofNat]; omega
  rw [BitVec.toInt_eq_toNat_of_lt (by rw [hn]; omega), hn]

/-- A look-up leaves node `i`'s word alone: it is not negative. -/
theorem wrapW_loop (i : Fin 100000) : wrapW (BitVec.ofNat 32 i.val) = BitVec.ofNat 32 i.val := by
  unfold wrapW
  have h : IntOp.cmpi .slt (BitVec.ofNat 32 i.val) 0#32 = 0#1 := by
    unfold IntOp.cmpi
    show BitVec.ofBool ((BitVec.ofNat 32 i.val).slt 0#32) = 0#1
    rw [BitVec.slt_eq_decide, loop_toInt]
    have : ¬ ((i.val : ℤ) < (0#32 : BitVec 32).toInt) := by
      have : (0#32 : BitVec 32).toInt = 0 := by decide
      omega
    rw [decide_eq_false this]
    rfl
  rw [h]
  rfl

/-- Node `i`'s word names row `i` for a look-up. -/
theorem rowOf_loop (i : Fin 100000) : rowOf (BitVec.ofNat 32 i.val) = i := by
  unfold rowOf
  rw [wrapW_loop]
  exact clampRow_of_eq _ _ i (loop_toInt i)

/-- Of the loop edges, exactly node `k`'s own is accumulated at `k`. -/
theorem loop_filter (k : Fin 100000) :
    Finset.univ.filter (fun i : Fin 100000 => (BitVec.ofNat 32 i.val).toInt = (k.val : ℤ)) = {k} := by
  ext i
  rw [Finset.mem_filter, Finset.mem_singleton, loop_toInt]
  constructor
  · intro h; exact Fin.ext (by exact_mod_cast h.2)
  · intro h; exact ⟨Finset.mem_univ _, by rw [h]⟩

/-- A sum over the edges accumulated at `k`: the edge array's hits, then node `k`'s own loop. -/
theorem sum_hits {M : Type} [AddCommMonoid M] (x1 : IVec S2x3200000 32) (k : Fin 100000) (g : Fin 3300000 → M) :
    ∑ n ∈ Finset.univ.filter (fun n : Fin 3300000 =>
        (broadcastInDim S3300000x1 ![0] bcast_S3300000_S3300000x1_0 (dstAll x1) (ix2 n (0 : Fin 1))).toInt = (k.val : ℤ)), g n
      = ∑ e ∈ hits x1 k, g (inl e) + g (inr k) := by
  rw [column_eq]
  show ∑ n ∈ Finset.univ.filter (fun n : Fin 3300000 => (dstAll x1 (ix1 n)).toInt = (k.val : ℤ)), g n = _
  rw [sum_filter_edges]
  have h1 : Finset.univ.filter (fun e : Fin 3200000 => (dstAll x1 (ix1 (inl e))).toInt = (k.val : ℤ)) = hits x1 k :=
    Finset.filter_congr fun e _ => by rw [dstAll_inl]
  have h2 : Finset.univ.filter (fun i : Fin 100000 => (dstAll x1 (ix1 (inr i))).toInt = (k.val : ℤ)) = {k} := by
    rw [← loop_filter k]
    exact Finset.filter_congr fun i _ => by rw [dstAll_inr]
  rw [h1, h2, Finset.sum_singleton]

/-! ## The degree -/

theorem degAll_apply (x1 : IVec S2x3200000 32) (k : Fin 100000) : degAll (F := Ideal) x1 (ix1 k) = degree x1 k := by
  unfold degAll
  rw [fill_S100000_eq, fill_S3300000_eq]
  show Host.scatterAdd (F := Ideal) (flatScatter 100000 3300000 scatter_S100000_S3300000x1_S3300000_n_0_0_1_wf) _ _ _ (ix1 k) = _
  rw [flatScatterAdd_apply, sum_hits]
  exact (add_assoc _ _ _).symm

/-! ## The factor -/

/-- The reference's factor of a table of degrees, entry by entry. -/
theorem disOf_apply (d : FVec Ideal S100000 .f32) (i : S100000.Idx) :
    select (cmpf .ogt d (broadcastInDim S100000 ![] bcast_S_S100000 (constant (F := Ideal) S_ .f32 0x00000000#32))) (Host.rsqrt d)
        (broadcastInDim S100000 ![] bcast_S_S100000 (id (constant (F := Ideal) S_ .f32 0x00000000#32))) i
      = disOf (d i) := by
  rw [fill_S100000_eq, fill_S100000_eq]
  rfl

theorem disAll_apply (x1 : IVec S2x3200000 32) (k : Fin 100000) : disAll (F := Ideal) x1 (ix1 k) = dis x1 k := by
  unfold disAll
  rw [disOf_apply, degAll_apply]
  rfl

/-! ## The coefficient -/

/-- A table of scalars looked up at the (moved) words of a vector `v` of words, at edge `n`: the table at the row the word names. -/
theorem gatherWrap_apply (t : FVec Ideal S100000 .f32) (v : IVec S3300000 32) (n : Fin 3300000) :
    Host.gather gather_S100000_S3300000x1_S3300000_n_0_n_n_0_1_1 t
        (broadcastInDim S3300000x1 ![0] bcast_S3300000_S3300000x1_0 (wrapAll v)) (ix1 n)
      = t (ix1 (rowOf (v (ix1 n)))) := by
  rw [column_eq, wrapAll_eq]
  show Host.gather (flatGather 100000 3300000 gather_S100000_S3300000x1_S3300000_n_0_n_n_0_1_1_wf) _ _ (ix1 n) = _
  rw [flatGather_apply (by norm_num : 0 < 100000)]
  rfl

theorem coefAll_apply (x1 : IVec S2x3200000 32) (n : Fin 3300000) :
    coefAll (F := Ideal) x1 (ix1 n) = dis x1 (rowOf (srcAll x1 (ix1 n))) * dis x1 (rowOf (dstAll x1 (ix1 n))) := by
  unfold coefAll
  rw [mulf_apply, gatherWrap_apply, gatherWrap_apply, disAll_apply, disAll_apply]

theorem coefAll_inl (x1 : IVec S2x3200000 32) (e : Fin 3200000) : coefAll (F := Ideal) x1 (ix1 (inl e)) = coef x1 e := by
  rw [coefAll_apply, srcAll_inl, dstAll_inl]
  rfl

theorem coefAll_inr (x1 : IVec S2x3200000 32) (i : Fin 100000) : coefAll (F := Ideal) x1 (ix1 (inr i)) = dis x1 i * dis x1 i := by
  rw [coefAll_apply, srcAll_inr, dstAll_inr, rowOf_loop]

end Cert.ReferenceIdeal.RefStages

end
-- ==== Proof.RefValue.lean ====
/-
  The reference's result is the common function.

  One round of the reference accumulates, at each of the 3300000 edges' targets, the edge's coefficient times the row looked
  up at its source. At node `k` that is the edge array's hits at `k` and then node `k`'s own loop edge, whose coefficient is
  `dis k · dis k` and whose source row is row `k`: the common function's round, by the associativity of the sum and the
  commutativity of the product. The two matrix products are the sums over the contracted axis. The result is the two rounds
  and the two products chained.
-/
import proofs.«108763_j6004364280103_2_alg».proof.Proof.RefStages
import Idealize.ShloMosaic.PureOps.Ideal.Laws

noncomputable section

open scoped BigOperators

namespace Cert.ReferenceIdeal.RefValue

open Cert.ReferenceIdeal Cert.ReferenceIdeal.Gen Cert.ReferenceIdeal.RefTerm Cert.ReferenceIdeal.RefLayout Cert.ReferenceIdeal.RefStages
open Idealize.ShloMosaic Idealize.ShloMosaic.ValueIdx Cert.RowIndex Cert.Gcn

/-! ## One round -/

/-- A table of rows looked up at the (moved) words of a vector `s` of words, at edge `n`, column `f`. -/
theorem rowGatherWrap_apply (h : FVec Ideal S100000x16 .f32) (s : IVec S3300000 32) (n : Fin 3300000) (f : Fin 16) :
    Host.gather gather_S100000x16_S3300000x1_S3300000x16_1_0_n_n_0_1_116 h
        (broadcastInDim S3300000x1 ![0] bcast_S3300000_S3300000x1_0 (wrapAll s)) (ix2 n f)
      = h (ix2 (rowOf (s (ix1 n))) f) := by
  rw [column_eq, wrapAll_eq]
  show Host.gather (rowGather 100000 16 3300000 gather_S100000x16_S3300000x1_S3300000x16_1_0_n_n_0_1_116_wf) _ _ (ix2 n f) = _
  rw [rowGather_apply (by norm_num : 0 < 100000)]
  rfl

/-- An edge's contribution: its coefficient times the row looked up at its source. -/
theorem upd_apply (c : FVec Ideal S3300000 .f32) (s : IVec S3300000 32) (h : FVec Ideal S100000x16 .f32) (n : Fin 3300000) (f : Fin 16) :
    mulf (broadcastInDim S3300000x16 ![0, 1] bcast_S3300000x1_S3300000x16_0_1
          (broadcastInDim S3300000x1 ![0] bcast_S3300000_S3300000x1_0 c))
        (Host.gather gather_S100000x16_S3300000x1_S3300000x16_1_0_n_n_0_1_116 h
          (broadcastInDim S3300000x1 ![0] bcast_S3300000_S3300000x1_0 (wrapAll s))) (ix2 n f)
      = c (ix1 n) * h (ix2 (rowOf (s (ix1 n))) f) := by
  rw [mulf_apply, spread_apply, column_apply, rowGatherWrap_apply]

/-- Rows accumulated from zero at the edges' targets, at `(k, f)`: the edge array's hits at `k`, then node `k`'s own loop. -/
theorem scatterRows_apply (x1 : IVec S2x3200000 32) (upd : FVec Ideal S3300000x16 .f32) (k : Fin 100000) (f : Fin 16) :
    Host.scatterAdd (F := Ideal) scatter_S100000x16_S3300000x1_S3300000x16_1_0_0_1
        (broadcastInDim S100000x16 ![] bcast_S_S100000x16 (constant (F := Ideal) S_ .f32 0x00000000#32))
        (broadcastInDim S3300000x1 ![0] bcast_S3300000_S3300000x1_0 (dstAll x1)) upd (ix2 k f)
      = zeroW + (∑ e ∈ hits x1 k, upd (ix2 (inl e) f) + upd (ix2 (inr k) f)) := by
  rw [fill_S100000x16_eq]
  show Host.scatterAdd (F := Ideal) (rowScatter 100000 16 3300000 scatter_S100000x16_S3300000x1_S3300000x16_1_0_0_1_wf) _ _ _ (ix2 k f) = _
  rw [rowScatterAdd_apply, sum_hits]
  rfl

theorem convAll_apply (x1 : IVec S2x3200000 32) (h : FVec Ideal S100000x16 .f32) (k : Fin 100000) (f : Fin 16) :
    convAll (F := Ideal) x1 h (ix2 k f) = conv x1 (fun r g => h (ix2 r g)) k f := by
  unfold convAll
  rw [scatterRows_apply, upd_apply, coefAll_inr, srcAll_inr, rowOf_loop]
  have h1 : ∀ e : Fin 3200000,
      mulf (broadcastInDim S3300000x16 ![0, 1] bcast_S3300000x1_S3300000x16_0_1
          (broadcastInDim S3300000x1 ![0] bcast_S3300000_S3300000x1_0 (coefAll (F := Ideal) x1)))
        (Host.gather gather_S100000x16_S3300000x1_S3300000x16_1_0_n_n_0_1_116 h
          (broadcastInDim S3300000x1 ![0] bcast_S3300000_S3300000x1_0 (wrapAll (srcAll x1)))) (ix2 (inl e) f)
        = h (ix2 (rowOf (srcW x1 e)) f) * coef x1 e := fun e => by
    rw [upd_apply, coefAll_inl, srcAll_inl, mul_comm]
  rw [Finset.sum_congr rfl (fun e _ => h1 e)]
  exact (add_assoc _ _ _).symm

/-! ## The two products -/

theorem dot1_apply (x0 : FVec Ideal S100000x512 .f32) (x2 : FVec Ideal S512x16 .f32) (r : Fin 100000) (f : Fin 16) :
    Host.dotGeneral (F := Ideal) dot_S100000x512_S512x16_S100000x16_1_0_0_1_n_n none x0 x2 (ix2 r f) = lin1 x0 x2 r f := by
  unfold lin1
  simp only [Host.dotGeneral]
  rw [Ideal.dotGeneral_apply, ← Equiv.sum_comp (contrEquiv1 dot_S100000x512_S512x16_S100000x16_1_0_0_1_n_n 512 rfl rfl).symm]
  refine Finset.sum_congr rfl fun k _ => ?_
  have hk := contrEquiv1_symm_val dot_S100000x512_S512x16_S100000x16_1_0_0_1_n_n 512 rfl rfl k
  have el : dot_S100000x512_S512x16_S100000x16_1_0_0_1_n_n.lhsIdx (ix2 r f)
      ((contrEquiv1 dot_S100000x512_S512x16_S100000x16_1_0_0_1_n_n 512 rfl rfl).symm k) = ix2 r k := funext fun a => Fin.ext (by
    match a with
    | ⟨0, _⟩ =>
      show (dot_S100000x512_S512x16_S100000x16_1_0_0_1_n_n.lhsIdx (ix2 r f) _ 0).val = r.val
      unfold DotDims.lhsIdx
      rw [dif_neg (show ¬(0 : Fin S100000x512.rank) ∈ dot_S100000x512_S512x16_S100000x16_1_0_0_1_n_n.lhsBatch by decide),
        dif_pos (show (0 : Fin S100000x512.rank) ∈ dot_S100000x512_S512x16_S100000x16_1_0_0_1_n_n.lhsNonContracting by decide)]
      rfl
    | ⟨1, _⟩ => exact (dot_S100000x512_S512x16_S100000x16_1_0_0_1_n_n.lhsIdx_val_of_single rfl (ix2 r f) _).trans hk)
  have er : dot_S100000x512_S512x16_S100000x16_1_0_0_1_n_n.rhsIdx (ix2 r f)
      ((contrEquiv1 dot_S100000x512_S512x16_S100000x16_1_0_0_1_n_n 512 rfl rfl).symm k) = ix2 k f := funext fun a => Fin.ext (by
    match a with
    | ⟨0, _⟩ => exact (dot_S100000x512_S512x16_S100000x16_1_0_0_1_n_n.rhsIdx_val_of_single rfl (ix2 r f) _).trans hk
    | ⟨1, _⟩ =>
      show (dot_S100000x512_S512x16_S100000x16_1_0_0_1_n_n.rhsIdx (ix2 r f) _ 1).val = f.val
      unfold DotDims.rhsIdx
      rw [dif_neg (show ¬(1 : Fin S512x16.rank) ∈ dot_S100000x512_S512x16_S100000x16_1_0_0_1_n_n.rhsBatch by decide),
        dif_pos (show (1 : Fin S512x16.rank) ∈ dot_S100000x512_S512x16_S100000x16_1_0_0_1_n_n.rhsNonContracting by decide)]
      rfl)
  rw [el, er]

theorem dot2_apply (y : FVec Ideal S100000x16 .f32) (x3 : FVec Ideal S16x16 .f32) (r : Fin 100000) (f : Fin 16) :
    Host.dotGeneral (F := Ideal) dot_S100000x16_S16x16_S100000x16_1_0_0_1_n_n none y x3 (ix2 r f)
      = lin2 (fun p g => y (ix2 p g)) x3 r f := by
  unfold lin2
  simp only [Host.dotGeneral]
  rw [Ideal.dotGeneral_apply, ← Equiv.sum_comp (contrEquiv1 dot_S100000x16_S16x16_S100000x16_1_0_0_1_n_n 16 rfl rfl).symm]
  refine Finset.sum_congr rfl fun k _ => ?_
  have hk := contrEquiv1_symm_val dot_S100000x16_S16x16_S100000x16_1_0_0_1_n_n 16 rfl rfl k
  have el : dot_S100000x16_S16x16_S100000x16_1_0_0_1_n_n.lhsIdx (ix2 r f)
      ((contrEquiv1 dot_S100000x16_S16x16_S100000x16_1_0_0_1_n_n 16 rfl rfl).symm k) = ix2 r k := funext fun a => Fin.ext (by
    match a with
    | ⟨0, _⟩ =>
      show (dot_S100000x16_S16x16_S100000x16_1_0_0_1_n_n.lhsIdx (ix2 r f) _ 0).val = r.val
      unfold DotDims.lhsIdx
      rw [dif_neg (show ¬(0 : Fin S100000x16.rank) ∈ dot_S100000x16_S16x16_S100000x16_1_0_0_1_n_n.lhsBatch by decide),
        dif_pos (show (0 : Fin S100000x16.rank) ∈ dot_S100000x16_S16x16_S100000x16_1_0_0_1_n_n.lhsNonContracting by decide)]
      rfl
    | ⟨1, _⟩ => exact (dot_S100000x16_S16x16_S100000x16_1_0_0_1_n_n.lhsIdx_val_of_single rfl (ix2 r f) _).trans hk)
  have er : dot_S100000x16_S16x16_S100000x16_1_0_0_1_n_n.rhsIdx (ix2 r f)
      ((contrEquiv1 dot_S100000x16_S16x16_S100000x16_1_0_0_1_n_n 16 rfl rfl).symm k) = ix2 k f := funext fun a => Fin.ext (by
    match a with
    | ⟨0, _⟩ => exact (dot_S100000x16_S16x16_S100000x16_1_0_0_1_n_n.rhsIdx_val_of_single rfl (ix2 r f) _).trans hk
    | ⟨1, _⟩ =>
      show (dot_S100000x16_S16x16_S100000x16_1_0_0_1_n_n.rhsIdx (ix2 r f) _ 1).val = f.val
      unfold DotDims.rhsIdx
      rw [dif_neg (show ¬(1 : Fin S16x16.rank) ∈ dot_S100000x16_S16x16_S100000x16_1_0_0_1_n_n.rhsBatch by decide),
        dif_pos (show (1 : Fin S16x16.rank) ∈ dot_S100000x16_S16x16_S100000x16_1_0_0_1_n_n.rhsNonContracting by decide)]
      rfl)
  rw [el, er]

/-! ## The result -/

/-- THE REFERENCE'S RESULT IS THE COMMON FUNCTION. -/
theorem refOut_eq (x0 : FVec Ideal S100000x512 .f32) (x1 : IVec S2x3200000 32) (x2 : FVec Ideal S512x16 .f32)
    (x3 : FVec Ideal S16x16 .f32) : refOut (F := Ideal) x0 x1 x2 x3 = Cert.Gcn.out x0 x1 x2 x3 := by
  funext i
  obtain ⟨k, f, rfl⟩ : ∃ (k : Fin 100000) (f : Fin 16), i = ix2 k f := ⟨i 0, i 1, eq_ix2 i⟩
  rw [out_apply]
  unfold refOut
  rw [convAll_apply]
  have h2 : (fun r g => Host.dotGeneral (F := Ideal) dot_S100000x16_S16x16_S100000x16_1_0_0_1_n_n none
        (convAll (F := Ideal) x1 (Host.dotGeneral (F := Ideal) dot_S100000x512_S512x16_S100000x16_1_0_0_1_n_n none x0 x2)) x3 (ix2 r g))
      = lin2 (layer1 x0 x1 x2) x3 := by
    funext r g
    rw [dot2_apply]
    have h1 : (fun p q => convAll (F := Ideal) x1 (Host.dotGeneral (F := Ideal) dot_S100000x512_S512x16_S100000x16_1_0_0_1_n_n none x0 x2) (ix2 p q))
        = layer1 x0 x1 x2 := by
      funext p q
      rw [convAll_apply]
      have h0 : (fun a b => Host.dotGeneral (F := Ideal) dot_S100000x512_S512x16_S100000x16_1_0_0_1_n_n none x0 x2 (ix2 a b)) = lin1 x0 x2 := by
        funext a b
        exact dot1_apply x0 x2 a b
      rw [h0]
      rfl
    rw [h1]
  rw [h2]

end Cert.ReferenceIdeal.RefValue

end
-- ==== Proof.lean ====
/-
  Two rounds of normalised neighbourhood averaging on a graph — a pipelined kernel program against its plain reference.

  Both programs compute, entry by entry over the extended reals, ONE function of the four argument arrays
  (`Cert.Gcn.out`): a round of accumulation along the edges on `x · w1`, the product with `w2`, and a second round, where a
  round sends row `k` of a table to the sum over the edges accumulated at `k` of the source's row times the edge's
  coefficient, plus the node's own loop term. The kernel program runs the two matrix products and the two row scalings as
  pipelined regions and keeps the loops apart from the edges (the degree is the edge count plus one; the loop term is
  added after the accumulation); the reference appends the loops to the edges and accumulates over all of them at once.
  A sum over the appended list splits into the sum over the edges and the sum over the loops, and the loops accumulated
  at `k` are the single loop `k → k`; the rest is the associativity of the sum and the commutativity of the product, which
  hold at the infinities too, so the precondition on the inputs is not needed for the values.

  The kernel side: the run of its eleven segments with the result buffer named, the buffers at each segment boundary
  walked forward as terms of the arguments, each region's output array as a whole-array function of its inputs, and the
  final term read entry by entry. The reference side: its run as a list of host operations with the result at the
  composed term, and that term read entry by entry, the appended list split. The kernel program read at exact arithmetic
  is the word-level program's own text, no operation rewritten, so that conjunct is trivial.
-/
import proofs.«108763_j6004364280103_2_alg».proof.Defs
import proofs.«108763_j6004364280103_2_alg».proof.Proof.Gen.Kernel
import proofs.«108763_j6004364280103_2_alg».proof.Proof.Gen.Kernel.Skeleton
import proofs.«108763_j6004364280103_2_alg».proof.Proof.Gen.Kernel.Launch
import proofs.«108763_j6004364280103_2_alg».proof.Proof.Gen.Kernel.Points
import proofs.«108763_j6004364280103_2_alg».proof.Proof.Gen.Kernel.Frame
import proofs.«108763_j6004364280103_2_alg».proof.Proof.Gen.KernelIdeal
import proofs.«108763_j6004364280103_2_alg».proof.Proof.Gen.KernelIdeal.Skeleton
import proofs.«108763_j6004364280103_2_alg».proof.Proof.Gen.KernelIdeal.Launch
import proofs.«108763_j6004364280103_2_alg».proof.Proof.Gen.KernelIdeal.Points
import proofs.«108763_j6004364280103_2_alg».proof.Proof.Gen.KernelIdeal.Frame
import proofs.«108763_j6004364280103_2_alg».proof.Proof.Gen.ReferenceIdeal
import proofs.«108763_j6004364280103_2_alg».proof.Proof.Gen.Pre_finite_inputs
import proofs.«108763_j6004364280103_2_alg».proof.Proof.GcnSpec
import proofs.«108763_j6004364280103_2_alg».proof.Proof.KernelRun
import proofs.«108763_j6004364280103_2_alg».proof.Proof.KFold
import proofs.«108763_j6004364280103_2_alg».proof.Proof.KValue
import proofs.«108763_j6004364280103_2_alg».proof.Proof.RegionScale
import proofs.«108763_j6004364280103_2_alg».proof.Proof.RegionMatmul
import proofs.«108763_j6004364280103_2_alg».proof.Proof.RefRun
import proofs.«108763_j6004364280103_2_alg».proof.Proof.RefValue
import Idealize.ShloMosaic.Adequacy
import Idealize.ShloMosaic.Init

noncomputable section

namespace Cert.Proof

open Idealize.ShloMosaic Idealize.SL.Sem

/-- The word-level kernel program terminates, faults nowhere and leaves its arguments as launched. -/
theorem frame_k : Cert.frame_Kernel := fun m ρ _ => Cert.Kernel.Gen.frame m ρ

/-- So does the kernel program read at exact arithmetic. -/
theorem frame_ki : Cert.frame_KernelIdeal := fun m ρ _ => Cert.KernelIdeal.Gen.frame m ρ

/-- So does the reference read at exact arithmetic: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The two programs read at exact arithmetic, from memories agreeing on the arguments, both end with the common function of the
    arguments in their result buffers. -/
theorem algebraic : Cert.algebraic_KernelIdeal_ReferenceIdeal := by
  intro m ρ m' ρ' _ hagree
  refine ⟨fun c => Cert.Gcn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans ((Cert.KernelIdeal.KFold.result_eq m ρ c
          (fun V c => Cert.KernelIdeal.RegionValue.final0 V c) (fun V c => Cert.KernelIdeal.RegionValue.final1 V c)
          (fun V c => Cert.KernelIdeal.RegionValue.final2 V c) (fun V c => Cert.KernelIdeal.RegionValue.final3 V c)).trans
          (Cert.KernelIdeal.KValue.kOut_eq _ _ _ _)), (h c).2⟩)
      (Cert.KernelIdeal.KRun.run_out m ρ)
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2.1, (hagree c).2.2.2]
    exact Cert.ReferenceIdeal.RefValue.refOut_eq _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
